-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000x1 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x64 : Shape := ⟨2, ![1600000, 64]⟩
abbrev S1x100000x64 : Shape := ⟨3, ![1, 100000, 64]⟩
abbrev S4x100000x64 : Shape := ⟨3, ![4, 100000, 64]⟩

abbrev nBuf : Space → Nat
  | .hbm => 73
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x64, .f32⟩
  | .hbm, ⟨16, _⟩ => ⟨S100000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S1x100000x64, .f32⟩
  | .hbm, ⟨69, _⟩ => ⟨S1x100000x64, .f32⟩
  | .hbm, ⟨70, _⟩ => ⟨S1x100000x64, .f32⟩
  | .hbm, ⟨71, _⟩ => ⟨S1x100000x64, .f32⟩
  | .hbm, ⟨72, _⟩ => ⟨S4x100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v33) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x64 : Shape := ⟨2, ![1600000, 64]⟩
abbrev S1x100000x64 : Shape := ⟨3, ![1, 100000, 64]⟩
abbrev S4x100000x64 : Shape := ⟨3, ![4, 100000, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x64, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S1x100000x64, .f32⟩
  | .hbm, ⟨92, _⟩ => ⟨S1x100000x64, .f32⟩
  | .hbm, ⟨93, _⟩ => ⟨S1x100000x64, .f32⟩
  | .hbm, ⟨94, _⟩ => ⟨S1x100000x64, .f32⟩
  | .hbm, ⟨95, _⟩ => ⟨S4x100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_c_4 : Ref sig .tc := ⟨.hbm, 68, rfl⟩
abbrev main_v45 : Ref sig .tc := ⟨.hbm, 69, rfl⟩
abbrev main_v46 : Ref sig .tc := ⟨.hbm, 70, rfl⟩
abbrev main_c_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call3_cst : Ref sig .tc := ⟨.hbm, 88, rfl⟩
abbrev main_call3_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Tile0.lean ====
/-
  One grid point of pallas_call 0 — the input projection: a tile of 5000 rows of the node features times the whole 128×64 weight, plus the bias row, clamped below at zero — and what the pipeline needs of it, at any element
  instance `F` and at any contents `V` of the TensorCore's buffers when the call is entered.
  A window's block at a point is the rectangle of its array the point's index map selects (`iblk0`). The body reads each
  input window's whole staging buffer, computes one value from them and stores it over the whole output buffer, so after the
  body the output buffer holds that value of the input blocks (`out0_3`) and the input buffers are as found. From this: the
  pipeline's record of what every buffer holds after each point (`dat0`), that an input buffer holds its block at every
  point whether or not the pipeline fetched it there (an unfetched window's index has not moved), and the body's
  specification at a generic point (`body_obligation0`).
-/
import proofs.«103303_j13219909337227_1_alg».proof.Proof.K.Launch
import proofs.«103303_j13219909337227_1_alg».proof.Proof.Gen.Kernel.Skeleton
import proofs.«103303_j13219909337227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tile

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved since the last fetch, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved since the last fetch, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved since the last fetch, and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/
abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

/-- The one store is over the whole buffer, so every index of the buffer lies in it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's specification on whole staging buffers -/

set_option maxHeartbeats 1000000 in
/-- The body on whole staging buffers, the inputs' holding `xW` and the output's anything, runs to the continuation
    with the inputs' as they were and the output's at `out0_3` of the inputs'. -/
theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_relu_kernel i arg0 harg0 arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's record of the buffers -/

/-- What the pipeline of call 0 is told on core `c`: the windows' arrays as the call finds them (`V`); after the body at
    point `t` each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The record's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the specification on whole buffers applies; the
    rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Tile

end
-- ==== Proof.K.Tile1.lean ====
/-
  One grid point of pallas_call 1 — the first message-passing layer: a tile of 5000 rows of the state plus the same rows of the aggregated messages, times the whole 64×64 weight, plus the bias row, clamped below at zero — and what the pipeline needs of it, at any element
  instance `F` and at any contents `V` of the TensorCore's buffers when the call is entered.
  A window's block at a point is the rectangle of its array the point's index map selects (`iblk1`). The body reads each
  input window's whole staging buffer, computes one value from them and stores it over the whole output buffer, so after the
  body the output buffer holds that value of the input blocks (`out1_4`) and the input buffers are as found. From this: the
  pipeline's record of what every buffer holds after each point (`dat1`), that an input buffer holds its block at every
  point whether or not the pipeline fetched it there (an unfetched window's index has not moved), and the body's
  specification at a generic point (`body_obligation1`).
-/
import proofs.«103303_j13219909337227_1_alg».proof.Proof.K.Launch
import proofs.«103303_j13219909337227_1_alg».proof.Proof.Gen.Kernel.Skeleton
import proofs.«103303_j13219909337227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tile

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved since the last fetch, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched the block index has not moved since the last fetch, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched the block index has not moved since the last fetch, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched the block index has not moved since the last fetch, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/
abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64x64 := Rect.unit (s := S64x64) ![0, 0] S64x64.size inb_S64x64_S64x64_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out1_4 (x0 : Vec F S5000x64 .f32) (x1 : Vec F S5000x64 .f32) (x2 : Vec F S64x64 .f32) (x3 : Vec F S1x64 .f32) : Vec F S5000x64 .f32 :=
  View.canon [⟨r1_4, k1_pay1 (View.ld x0 r1_0) (View.ld x1 r1_1) (View.ld x2 r1_2) (View.ld x3 r1_3)⟩]

/-- The one store is over the whole buffer, so every index of the buffer lies in it. -/
theorem cover1_4 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

/-! ## The body's specification on whole staging buffers -/

set_option maxHeartbeats 1000000 in
/-- The body on whole staging buffers, the inputs' holding `xW` and the output's anything, runs to the continuation
    with the inputs' as they were and the output's at `out1_4` of the inputs'. -/
theorem sound_kernel1 (c : Dev nD) (E : Set ℕ) (i : grid1.Coords) (arg0 : Memref sig .tc .vmem S5000x64 .f32) (harg0 : arg0.IsWhole) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S64x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__layer_kernel i arg0 harg0 arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's record of the buffers -/

/-- What the pipeline of call 1 is told on core `c`: the windows' arrays as the call finds them (`V`); after the body at
    point `t` each input's buffer at its block and the output's at `out1_4` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The record's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the specification on whole buffers applies; the
    rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Tile

end
-- ==== Proof.K.Tile2.lean ====
/-
  One grid point of pallas_call 2 — the second message-passing layer: a tile of 5000 rows of the state plus the same rows of the aggregated messages, times the whole 64×64 weight, plus the bias row, clamped below at zero — and what the pipeline needs of it, at any element
  instance `F` and at any contents `V` of the TensorCore's buffers when the call is entered.
  A window's block at a point is the rectangle of its array the point's index map selects (`iblk2`). The body reads each
  input window's whole staging buffer, computes one value from them and stores it over the whole output buffer, so after the
  body the output buffer holds that value of the input blocks (`out2_4`) and the input buffers are as found. From this: the
  pipeline's record of what every buffer holds after each point (`dat2`), that an input buffer holds its block at every
  point whether or not the pipeline fetched it there (an unfetched window's index has not moved), and the body's
  specification at a generic point (`body_obligation2`).
-/
import proofs.«103303_j13219909337227_1_alg».proof.Proof.K.Launch
import proofs.«103303_j13219909337227_1_alg».proof.Proof.Gen.Kernel.Skeleton
import proofs.«103303_j13219909337227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tile

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved since the last fetch, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched the block index has not moved since the last fetch, and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched the block index has not moved since the last fetch, and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched the block index has not moved since the last fetch, and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/
abbrev r2_0 : Rect S5000x64 := Rect.unit (s := S5000x64) ![0, 0] S5000x64.size inb_S5000x64_S5000x64_0_0
abbrev r2_1 : Rect S5000x64 := Rect.unit (s := S5000x64) ![0, 0] S5000x64.size inb_S5000x64_S5000x64_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out2_4 (x0 : Vec F S5000x64 .f32) (x1 : Vec F S5000x64 .f32) (x2 : Vec F S64x64 .f32) (x3 : Vec F S1x64 .f32) : Vec F S5000x64 .f32 :=
  View.canon [⟨r2_4, k2_pay1 (View.ld x0 r2_0) (View.ld x1 r2_1) (View.ld x2 r2_2) (View.ld x3 r2_3)⟩]

/-- The one store is over the whole buffer, so every index of the buffer lies in it. -/
theorem cover2_4 (p0 : Vec F S5000x64 .f32) (y : S5000x64.Idx) :
    ∃ pc ∈ ([⟨r2_4, p0⟩] : List (View.Piece (Elt F) S5000x64 .f32)), y ∈ pc.1.set :=
  View.cover_of_tiled [⟨r2_4, p0⟩] S5000x64.size (by rfl) y

/-! ## The body's specification on whole staging buffers -/

set_option maxHeartbeats 1000000 in
/-- The body on whole staging buffers, the inputs' holding `xW` and the output's anything, runs to the continuation
    with the inputs' as they were and the output's at `out2_4` of the inputs'. -/
theorem sound_kernel2 (c : Dev nD) (E : Set ℕ) (i : grid2.Coords) (arg0 : Memref sig .tc .vmem S5000x64 .f32) (harg0 : arg0.IsWhole) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S64x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__layer_kernel i arg0 harg0 arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's record of the buffers -/

/-- What the pipeline of call 2 is told on core `c`: the windows' arrays as the call finds them (`V`); after the body at
    point `t` each input's buffer at its block and the output's at `out2_4` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The record's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the specification on whole buffers applies; the
    rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Tile

end
-- ==== Proof.K.Tile3.lean ====
/-
  One grid point of pallas_call 3 — the third message-passing layer: a tile of 5000 rows of the state plus the same rows of the aggregated messages, times the whole 64×64 weight, plus the bias row, clamped below at zero — and what the pipeline needs of it, at any element
  instance `F` and at any contents `V` of the TensorCore's buffers when the call is entered.
  A window's block at a point is the rectangle of its array the point's index map selects (`iblk3`). The body reads each
  input window's whole staging buffer, computes one value from them and stores it over the whole output buffer, so after the
  body the output buffer holds that value of the input blocks (`out3_4`) and the input buffers are as found. From this: the
  pipeline's record of what every buffer holds after each point (`dat3`), that an input buffer holds its block at every
  point whether or not the pipeline fetched it there (an unfetched window's index has not moved), and the body's
  specification at a generic point (`body_obligation3`).
-/
import proofs.«103303_j13219909337227_1_alg».proof.Proof.K.Launch
import proofs.«103303_j13219909337227_1_alg».proof.Proof.Gen.Kernel.Skeleton
import proofs.«103303_j13219909337227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tile

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched the block index has not moved since the last fetch, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where it is not
    fetched the block index has not moved since the last fetch, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where it is not
    fetched the block index has not moved since the last fetch, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: where it is not
    fetched the block index has not moved since the last fetch, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/
abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S64x64 := Rect.unit (s := S64x64) ![0, 0] S64x64.size inb_S64x64_S64x64_0_0
abbrev r3_3 : Rect S1x64 := Rect.unit (s := S1x64) ![0, 0] S1x64.size inb_S1x64_S1x64_0_0
abbrev r3_4 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out3_4 (x0 : Vec F S5000x64 .f32) (x1 : Vec F S5000x64 .f32) (x2 : Vec F S64x64 .f32) (x3 : Vec F S1x64 .f32) : Vec F S5000x64 .f32 :=
  View.canon [⟨r3_4, k3_pay1 (View.ld x0 r3_0) (View.ld x1 r3_1) (View.ld x2 r3_2) (View.ld x3 r3_3)⟩]

/-- The one store is over the whole buffer, so every index of the buffer lies in it. -/
theorem cover3_4 (p0 : Vec F S5000x64 .f32) (y : S5000x64.Idx) :
    ∃ pc ∈ ([⟨r3_4, p0⟩] : List (View.Piece (Elt F) S5000x64 .f32)), y ∈ pc.1.set :=
  View.cover_of_tiled [⟨r3_4, p0⟩] S5000x64.size (by rfl) y

/-! ## The body's specification on whole staging buffers -/

set_option maxHeartbeats 1000000 in
/-- The body on whole staging buffers, the inputs' holding `xW` and the output's anything, runs to the continuation
    with the inputs' as they were and the output's at `out3_4` of the inputs'. -/
theorem sound_kernel3 (c : Dev nD) (E : Set ℕ) (i : grid3.Coords) (arg0 : Memref sig .tc .vmem S5000x64 .f32) (harg0 : arg0.IsWhole) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S64x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__layer_kernel i arg0 harg0 arg1 harg1 arg2 harg2 arg3 harg3 arg4 harg4) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's record of the buffers -/

/-- What the pipeline of call 3 is told on core `c`: the windows' arrays as the call finds them (`V`); after the body at
    point `t` each input's buffer at its block and the output's at `out3_4` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The record's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the specification on whole buffers applies; the
    rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Cert.Kernel.Tile

end
-- ==== Proof.K.Run.lean ====
/-
  The whole run of @main on the TensorCores, at any element instance `F`: five stretches of host operations with the four
  pallas_calls between them.
  The contents of every unscoped buffer at each of the ten boundaries is a fold from the launch memory (`W0` … `W9`): a host
  stretch applies its operations in order; a pallas_call leaves each of its windows' arrays at what its pipeline's
  write-backs leave (an input window's array as found; the output window's array with each grid point's block written back)
  and touches nothing else. So a call changes one array only, its output's (`keep0` … `keep3`), and since no host operation
  and no call writes an argument, every argument array reads the same at the last boundary as at launch.
  Each call is entered holding every unscoped buffer at the boundary's contents and left holding them at the next
  boundary's; the generator register and the core's debts (none) ride along. The run theorem: every weakly fair execution
  terminates, nothing faults, and the final memory holds every unscoped buffer at `W9`; the frame statement is that run read
  at the argument arrays.
-/
import proofs.«103303_j13219909337227_1_alg».proof.Proof.K.Tile0
import proofs.«103303_j13219909337227_1_alg».proof.Proof.K.Tile1
import proofs.«103303_j13219909337227_1_alg».proof.Proof.K.Tile2
import proofs.«103303_j13219909337227_1_alg».proof.Proof.K.Tile3
import proofs.«103303_j13219909337227_1_alg».proof.Proof.K.Regions

set_option maxRecDepth 16384

noncomputable section

namespace Cert.Kernel.Tile

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h

/-- The contents call 0 is entered at, read at the TensorCore's references. -/
abbrev En1 : (c : Dev nD) → (b : Ref sig .tc) → Buf (Elt F) ((c : Thread nD τ).loc b) := fun c b => W1 m ρ c b
/-- At call 0's exit: its windows' arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)
/-- Call 0 changes one array only, its output window's: an input window's array ends as found (nothing is written back
    to it) and a buffer that is no window's array is not touched. -/
theorem keep0 (c : Dev nD) (b : Ref sig .tc) (hb : b ≠ main_v5) : W2 m ρ c b = W1 m ρ c b := by
  by_cases h : ∃ w, Pipeline.arrRef spec0 w = b
  · obtain ⟨w, rfl⟩ := h
    have hw : (cfg0.win w).isOut = false :=
      (by decide : ∀ w : Fin 4, Pipeline.arrRef spec0 w ≠ main_v5 → (cfg0.win w).isOut = false) w hb
    exact (W2_arr m ρ c w).trans (((dat0 (En1 m ρ) c).arrAt_in w hw _).trans (A_eq0 (En1 m ρ) c w))
  · exact W2_of_ne m ρ c b fun w e => h ⟨w, e⟩

/-- After the next host stretch. -/
abbrev W3 : Dev nD → Valuation τ sig (Elt F) := fun c => StableHlo.after hostOps1 (W2 m ρ c)
theorem W3_of (c : Dev nD) (r : Ref sig .tc) (h : r ∉ hostOps1_W) : W3 m ρ c r = W2 m ρ c r :=
  StableHlo.after_of_writes_sub hostOps1 _ hostOps1_writes h

/-- The contents call 1 is entered at, read at the TensorCore's references. -/
abbrev En3 : (c : Dev nD) → (b : Ref sig .tc) → Buf (Elt F) ((c : Thread nD τ).loc b) := fun c b => W3 m ρ c b
/-- At call 1's exit: its windows' arrays at what the pipeline leaves, every other buffer as entered. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)
/-- Call 1 changes one array only, its output window's: an input window's array ends as found (nothing is written back
    to it) and a buffer that is no window's array is not touched. -/
theorem keep1 (c : Dev nD) (b : Ref sig .tc) (hb : b ≠ main_v19) : W4 m ρ c b = W3 m ρ c b := by
  by_cases h : ∃ w, Pipeline.arrRef spec1 w = b
  · obtain ⟨w, rfl⟩ := h
    have hw : (cfg1.win w).isOut = false :=
      (by decide : ∀ w : Fin 5, Pipeline.arrRef spec1 w ≠ main_v19 → (cfg1.win w).isOut = false) w hb
    exact (W4_arr m ρ c w).trans (((dat1 (En3 m ρ) c).arrAt_in w hw _).trans (A_eq1 (En3 m ρ) c w))
  · exact W4_of_ne m ρ c b fun w e => h ⟨w, e⟩

/-- After the next host stretch. -/
abbrev W5 : Dev nD → Valuation τ sig (Elt F) := fun c => StableHlo.after hostOps2 (W4 m ρ c)
theorem W5_of (c : Dev nD) (r : Ref sig .tc) (h : r ∉ hostOps2_W) : W5 m ρ c r = W4 m ρ c r :=
  StableHlo.after_of_writes_sub hostOps2 _ hostOps2_writes h

/-- The contents call 2 is entered at, read at the TensorCore's references. -/
abbrev En5 : (c : Dev nD) → (b : Ref sig .tc) → Buf (Elt F) ((c : Thread nD τ).loc b) := fun c b => W5 m ρ c b
/-- At call 2's exit: its windows' arrays at what the pipeline leaves, every other buffer as entered. -/
def W6 (c : Dev nD) : Valuation τ sig (Elt F) :=
  Pipeline.withArrays spec2 c (W5 m ρ c) fun w => (dat2 (En5 m ρ) c).arrAt w cfg2.N
theorem W6_arr (c : Dev nD) (w : Fin cfg2.W) :
    W6 m ρ c (Proc.devRef .tc (Pipeline.arrRef spec2 w)) = (dat2 (En5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev Ex6 : (c : Dev nD) → (b : Ref sig .tc) → Buf (Elt F) ((c : Thread nD τ).loc b) := fun c b => W6 m ρ c b
theorem hF2 (c : Dev nD) (w : Fin cfg2.W) : (dat2 (En5 m ρ) c).arrAt w cfg2.N = Ex6 m ρ c (Pipeline.arrRef spec2 w) :=
  (W6_arr m ρ c w).symm
theorem hrest2 (c : Dev nD) : ∀ b, b ∉ Finset.univ.image (Pipeline.arrRef spec2) → Ex6 m ρ c b = En5 m ρ c b :=
  fun b hb => W6_of_ne m ρ c b fun w e => hb (Finset.mem_image.mpr ⟨w, Finset.mem_univ _, e⟩)
/-- Call 2 changes one array only, its output window's: an input window's array ends as found (nothing is written back
    to it) and a buffer that is no window's array is not touched. -/
theorem keep2 (c : Dev nD) (b : Ref sig .tc) (hb : b ≠ main_v33) : W6 m ρ c b = W5 m ρ c b := by
  by_cases h : ∃ w, Pipeline.arrRef spec2 w = b
  · obtain ⟨w, rfl⟩ := h
    have hw : (cfg2.win w).isOut = false :=
      (by decide : ∀ w : Fin 5, Pipeline.arrRef spec2 w ≠ main_v33 → (cfg2.win w).isOut = false) w hb
    exact (W6_arr m ρ c w).trans (((dat2 (En5 m ρ) c).arrAt_in w hw _).trans (A_eq2 (En5 m ρ) c w))
  · exact W6_of_ne m ρ c b fun w e => h ⟨w, e⟩

/-- After the next host stretch. -/
abbrev W7 : Dev nD → Valuation τ sig (Elt F) := fun c => StableHlo.after hostOps3 (W6 m ρ c)
theorem W7_of (c : Dev nD) (r : Ref sig .tc) (h : r ∉ hostOps3_W) : W7 m ρ c r = W6 m ρ c r :=
  StableHlo.after_of_writes_sub hostOps3 _ hostOps3_writes h

/-- The contents call 3 is entered at, read at the TensorCore's references. -/
abbrev En7 : (c : Dev nD) → (b : Ref sig .tc) → Buf (Elt F) ((c : Thread nD τ).loc b) := fun c b => W7 m ρ c b
/-- At call 3's exit: its windows' arrays at what the pipeline leaves, every other buffer as entered. -/
def W8 (c : Dev nD) : Valuation τ sig (Elt F) :=
  Pipeline.withArrays spec3 c (W7 m ρ c) fun w => (dat3 (En7 m ρ) c).arrAt w cfg3.N
theorem W8_arr (c : Dev nD) (w : Fin cfg3.W) :
    W8 m ρ c (Proc.devRef .tc (Pipeline.arrRef spec3 w)) = (dat3 (En7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev Ex8 : (c : Dev nD) → (b : Ref sig .tc) → Buf (Elt F) ((c : Thread nD τ).loc b) := fun c b => W8 m ρ c b
theorem hF3 (c : Dev nD) (w : Fin cfg3.W) : (dat3 (En7 m ρ) c).arrAt w cfg3.N = Ex8 m ρ c (Pipeline.arrRef spec3 w) :=
  (W8_arr m ρ c w).symm
theorem hrest3 (c : Dev nD) : ∀ b, b ∉ Finset.univ.image (Pipeline.arrRef spec3) → Ex8 m ρ c b = En7 m ρ c b :=
  fun b hb => W8_of_ne m ρ c b fun w e => hb (Finset.mem_image.mpr ⟨w, Finset.mem_univ _, e⟩)
/-- Call 3 changes one array only, its output window's: an input window's array ends as found (nothing is written back
    to it) and a buffer that is no window's array is not touched. -/
theorem keep3 (c : Dev nD) (b : Ref sig .tc) (hb : b ≠ main_v47) : W8 m ρ c b = W7 m ρ c b := by
  by_cases h : ∃ w, Pipeline.arrRef spec3 w = b
  · obtain ⟨w, rfl⟩ := h
    have hw : (cfg3.win w).isOut = false :=
      (by decide : ∀ w : Fin 5, Pipeline.arrRef spec3 w ≠ main_v47 → (cfg3.win w).isOut = false) w hb
    exact (W8_arr m ρ c w).trans (((dat3 (En7 m ρ) c).arrAt_in w hw _).trans (A_eq3 (En7 m ρ) c w))
  · exact W8_of_ne m ρ c b fun w e => h ⟨w, e⟩

/-- After the next host stretch. -/
abbrev W9 : Dev nD → Valuation τ sig (Elt F) := fun c => StableHlo.after hostOps4 (W8 m ρ c)
theorem W9_of (c : Dev nD) (r : Ref sig .tc) (h : r ∉ hostOps4_W) : W9 m ρ c r = W8 m ρ c r :=
  StableHlo.after_of_writes_sub hostOps4 _ hostOps4_writes h

/-! ## The arguments end as launched -/

theorem W9_main_arg0 (c : Dev nD) : W9 m ρ c (Proc.devRef .tc main_arg0) = m ((c : Thread nD τ).loc main_arg0) :=
  (W9_of m ρ c main_arg0 (by decide)).trans <| (keep3 m ρ c main_arg0 (by decide)).trans <| (W7_of m ρ c main_arg0 (by decide)).trans <|
  (keep2 m ρ c main_arg0 (by decide)).trans <| (W5_of m ρ c main_arg0 (by decide)).trans <| (keep1 m ρ c main_arg0 (by decide)).trans <|
  (W3_of m ρ c main_arg0 (by decide)).trans <| (keep0 m ρ c main_arg0 (by decide)).trans <| (W1_of m ρ c main_arg0 (by decide)).trans rfl

theorem W9_main_arg1 (c : Dev nD) : W9 m ρ c (Proc.devRef .tc main_arg1) = m ((c : Thread nD τ).loc main_arg1) :=
  (W9_of m ρ c main_arg1 (by decide)).trans <| (keep3 m ρ c main_arg1 (by decide)).trans <| (W7_of m ρ c main_arg1 (by decide)).trans <|
  (keep2 m ρ c main_arg1 (by decide)).trans <| (W5_of m ρ c main_arg1 (by decide)).trans <| (keep1 m ρ c main_arg1 (by decide)).trans <|
  (W3_of m ρ c main_arg1 (by decide)).trans <| (keep0 m ρ c main_arg1 (by decide)).trans <| (W1_of m ρ c main_arg1 (by decide)).trans rfl

theorem W9_main_arg2 (c : Dev nD) : W9 m ρ c (Proc.devRef .tc main_arg2) = m ((c : Thread nD τ).loc main_arg2) :=
  (W9_of m ρ c main_arg2 (by decide)).trans <| (keep3 m ρ c main_arg2 (by decide)).trans <| (W7_of m ρ c main_arg2 (by decide)).trans <|
  (keep2 m ρ c main_arg2 (by decide)).trans <| (W5_of m ρ c main_arg2 (by decide)).trans <| (keep1 m ρ c main_arg2 (by decide)).trans <|
  (W3_of m ρ c main_arg2 (by decide)).trans <| (keep0 m ρ c main_arg2 (by decide)).trans <| (W1_of m ρ c main_arg2 (by decide)).trans rfl

theorem W9_main_arg3 (c : Dev nD) : W9 m ρ c (Proc.devRef .tc main_arg3) = m ((c : Thread nD τ).loc main_arg3) :=
  (W9_of m ρ c main_arg3 (by decide)).trans <| (keep3 m ρ c main_arg3 (by decide)).trans <| (W7_of m ρ c main_arg3 (by decide)).trans <|
  (keep2 m ρ c main_arg3 (by decide)).trans <| (W5_of m ρ c main_arg3 (by decide)).trans <| (keep1 m ρ c main_arg3 (by decide)).trans <|
  (W3_of m ρ c main_arg3 (by decide)).trans <| (keep0 m ρ c main_arg3 (by decide)).trans <| (W1_of m ρ c main_arg3 (by decide)).trans rfl

theorem W9_main_arg4 (c : Dev nD) : W9 m ρ c (Proc.devRef .tc main_arg4) = m ((c : Thread nD τ).loc main_arg4) :=
  (W9_of m ρ c main_arg4 (by decide)).trans <| (keep3 m ρ c main_arg4 (by decide)).trans <| (W7_of m ρ c main_arg4 (by decide)).trans <|
  (keep2 m ρ c main_arg4 (by decide)).trans <| (W5_of m ρ c main_arg4 (by decide)).trans <| (keep1 m ρ c main_arg4 (by decide)).trans <|
  (W3_of m ρ c main_arg4 (by decide)).trans <| (keep0 m ρ c main_arg4 (by decide)).trans <| (W1_of m ρ c main_arg4 (by decide)).trans rfl

theorem W9_main_arg5 (c : Dev nD) : W9 m ρ c (Proc.devRef .tc main_arg5) = m ((c : Thread nD τ).loc main_arg5) :=
  (W9_of m ρ c main_arg5 (by decide)).trans <| (keep3 m ρ c main_arg5 (by decide)).trans <| (W7_of m ρ c main_arg5 (by decide)).trans <|
  (keep2 m ρ c main_arg5 (by decide)).trans <| (W5_of m ρ c main_arg5 (by decide)).trans <| (keep1 m ρ c main_arg5 (by decide)).trans <|
  (W3_of m ρ c main_arg5 (by decide)).trans <| (keep0 m ρ c main_arg5 (by decide)).trans <| (W1_of m ρ c main_arg5 (by decide)).trans rfl

theorem W9_main_arg6 (c : Dev nD) : W9 m ρ c (Proc.devRef .tc main_arg6) = m ((c : Thread nD τ).loc main_arg6) :=
  (W9_of m ρ c main_arg6 (by decide)).trans <| (keep3 m ρ c main_arg6 (by decide)).trans <| (W7_of m ρ c main_arg6 (by decide)).trans <|
  (keep2 m ρ c main_arg6 (by decide)).trans <| (W5_of m ρ c main_arg6 (by decide)).trans <| (keep1 m ρ c main_arg6 (by decide)).trans <|
  (W3_of m ρ c main_arg6 (by decide)).trans <| (keep0 m ρ c main_arg6 (by decide)).trans <| (W1_of m ρ c main_arg6 (by decide)).trans rfl

theorem W9_main_arg7 (c : Dev nD) : W9 m ρ c (Proc.devRef .tc main_arg7) = m ((c : Thread nD τ).loc main_arg7) :=
  (W9_of m ρ c main_arg7 (by decide)).trans <| (keep3 m ρ c main_arg7 (by decide)).trans <| (W7_of m ρ c main_arg7 (by decide)).trans <|
  (keep2 m ρ c main_arg7 (by decide)).trans <| (W5_of m ρ c main_arg7 (by decide)).trans <| (keep1 m ρ c main_arg7 (by decide)).trans <|
  (W3_of m ρ c main_arg7 (by decide)).trans <| (keep0 m ρ c main_arg7 (by decide)).trans <| (W1_of m ρ c main_arg7 (by decide)).trans rfl

theorem W9_main_arg8 (c : Dev nD) : W9 m ρ c (Proc.devRef .tc main_arg8) = m ((c : Thread nD τ).loc main_arg8) :=
  (W9_of m ρ c main_arg8 (by decide)).trans <| (keep3 m ρ c main_arg8 (by decide)).trans <| (W7_of m ρ c main_arg8 (by decide)).trans <|
  (keep2 m ρ c main_arg8 (by decide)).trans <| (W5_of m ρ c main_arg8 (by decide)).trans <| (keep1 m ρ c main_arg8 (by decide)).trans <|
  (W3_of m ρ c main_arg8 (by decide)).trans <| (keep0 m ρ c main_arg8 (by decide)).trans <| (W1_of m ρ c main_arg8 (by decide)).trans rfl

theorem W9_main_arg9 (c : Dev nD) : W9 m ρ c (Proc.devRef .tc main_arg9) = m ((c : Thread nD τ).loc main_arg9) :=
  (W9_of m ρ c main_arg9 (by decide)).trans <| (keep3 m ρ c main_arg9 (by decide)).trans <| (W7_of m ρ c main_arg9 (by decide)).trans <|
  (keep2 m ρ c main_arg9 (by decide)).trans <| (W5_of m ρ c main_arg9 (by decide)).trans <| (keep1 m ρ c main_arg9 (by decide)).trans <|
  (W3_of m ρ c main_arg9 (by decide)).trans <| (keep0 m ρ c main_arg9 (by decide)).trans <| (W1_of m ρ c main_arg9 (by decide)).trans rfl

theorem W9_main_arg10 (c : Dev nD) : W9 m ρ c (Proc.devRef .tc main_arg10) = m ((c : Thread nD τ).loc main_arg10) :=
  (W9_of m ρ c main_arg10 (by decide)).trans <| (keep3 m ρ c main_arg10 (by decide)).trans <| (W7_of m ρ c main_arg10 (by decide)).trans <|
  (keep2 m ρ c main_arg10 (by decide)).trans <| (W5_of m ρ c main_arg10 (by decide)).trans <| (keep1 m ρ c main_arg10 (by decide)).trans <|
  (W3_of m ρ c main_arg10 (by decide)).trans <| (keep0 m ρ c main_arg10 (by decide)).trans <| (W1_of m ρ c main_arg10 (by decide)).trans rfl

/-! ## The pipelines' records and what rides beside the buffers -/

/-- Every pipeline's record, each at its call's entry contents. -/
def pdats : (p : Fin 4) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0 over the thread state: entered from every unscoped buffer at `W1`, left at `W2`. Its arrays are split out of
    the unscoped buffers and put back at the exit contents; the generator register goes into the pipeline's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`. Its arrays are split out of
    the unscoped buffers and put back at the exit contents; the generator register goes into the pipeline's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`. Its arrays are split out of
    the unscoped buffers and put back at the exit contents; the generator register goes into the pipeline's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W7`, left at `W8`. Its arrays are split out of
    the unscoped buffers and put back at the exit contents; the generator register goes into the pipeline's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option backward.isDefEq.respectTransparency.types false in
/-- THE RUN: from any memory with zero counters, every weakly fair execution of @main on the TensorCores terminates,
    nothing faulting, and the final memory holds every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: the run read at the argument arrays, none of which a host operation or a call writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c)⟩)
    (run_all m ρ)

end Cert.Kernel.Tile

end
-- ==== Proof.KI.Tile0.lean ====
/-
  One grid point of pallas_call 0 — the input projection: a tile of 5000 rows of the node features times the whole 128×64 weight, plus the bias row, clamped below at zero — and what the pipeline needs of it, at any element
  instance `F` and at any contents `V` of the TensorCore's buffers when the call is entered.
  A window's block at a point is the rectangle of its array the point's index map selects (`iblk0`). The body reads each
  input window's whole staging buffer, computes one value from them and stores it over the whole output buffer, so after the
  body the output buffer holds that value of the input blocks (`out0_3`) and the input buffers are as found. From this: the
  pipeline's record of what every buffer holds after each point (`dat0`), that an input buffer holds its block at every
  point whether or not the pipeline fetched it there (an unfetched window's index has not moved), and the body's
  specification at a generic point (`body_obligation0`).
-/
import proofs.«103303_j13219909337227_1_alg».proof.Proof.KI.Launch
import proofs.«103303_j13219909337227_1_alg».proof.Proof.Gen.KernelIdeal.Skeleton
import proofs.«103303_j13219909337227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved since the last fetch, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved since the last fetch, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved since the last fetch, and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/
abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

/-- The one store is over the whole buffer, so every index of the buffer lies in it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's specification on whole staging buffers -/

set_option maxHeartbeats 1000000 in
/-- The body on whole staging buffers, the inputs' holding `xW` and the output's anything, runs to the continuation
    with the inputs' as they were and the output's at `out0_3` of the inputs'. -/
theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_relu_kernel i arg0 harg0 arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's record of the buffers -/

/-- What the pipeline of call 0 is told on core `c`: the windows' arrays as the call finds them (`V`); after the body at
    point `t` each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The record's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the specification on whole buffers applies; the
    rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Tile

end
-- ==== Proof.KI.Tile1.lean ====
/-
  One grid point of pallas_call 1 — the first message-passing layer: a tile of 5000 rows of the state plus the same rows of the aggregated messages, times the whole 64×64 weight, plus the bias row, clamped below at zero — and what the pipeline needs of it, at any element
  instance `F` and at any contents `V` of the TensorCore's buffers when the call is entered.
  A window's block at a point is the rectangle of its array the point's index map selects (`iblk1`). The body reads each
  input window's whole staging buffer, computes one value from them and stores it over the whole output buffer, so after the
  body the output buffer holds that value of the input blocks (`out1_4`) and the input buffers are as found. From this: the
  pipeline's record of what every buffer holds after each point (`dat1`), that an input buffer holds its block at every
  point whether or not the pipeline fetched it there (an unfetched window's index has not moved), and the body's
  specification at a generic point (`body_obligation1`).
-/
import proofs.«103303_j13219909337227_1_alg».proof.Proof.KI.Launch
import proofs.«103303_j13219909337227_1_alg».proof.Proof.Gen.KernelIdeal.Skeleton
import proofs.«103303_j13219909337227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved since the last fetch, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched the block index has not moved since the last fetch, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched the block index has not moved since the last fetch, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched the block index has not moved since the last fetch, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/
abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64x64 := Rect.unit (s := S64x64) ![0, 0] S64x64.size inb_S64x64_S64x64_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out1_4 (x0 : Vec F S5000x64 .f32) (x1 : Vec F S5000x64 .f32) (x2 : Vec F S64x64 .f32) (x3 : Vec F S1x64 .f32) : Vec F S5000x64 .f32 :=
  View.canon [⟨r1_4, k1_pay1 (View.ld x0 r1_0) (View.ld x1 r1_1) (View.ld x2 r1_2) (View.ld x3 r1_3)⟩]

/-- The one store is over the whole buffer, so every index of the buffer lies in it. -/
theorem cover1_4 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

/-! ## The body's specification on whole staging buffers -/

set_option maxHeartbeats 1000000 in
/-- The body on whole staging buffers, the inputs' holding `xW` and the output's anything, runs to the continuation
    with the inputs' as they were and the output's at `out1_4` of the inputs'. -/
theorem sound_kernel1 (c : Dev nD) (E : Set ℕ) (i : grid1.Coords) (arg0 : Memref sig .tc .vmem S5000x64 .f32) (harg0 : arg0.IsWhole) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S64x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__layer_kernel i arg0 harg0 arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's record of the buffers -/

/-- What the pipeline of call 1 is told on core `c`: the windows' arrays as the call finds them (`V`); after the body at
    point `t` each input's buffer at its block and the output's at `out1_4` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The record's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the specification on whole buffers applies; the
    rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Tile

end
-- ==== Proof.KI.Tile2.lean ====
/-
  One grid point of pallas_call 2 — the second message-passing layer: a tile of 5000 rows of the state plus the same rows of the aggregated messages, times the whole 64×64 weight, plus the bias row, clamped below at zero — and what the pipeline needs of it, at any element
  instance `F` and at any contents `V` of the TensorCore's buffers when the call is entered.
  A window's block at a point is the rectangle of its array the point's index map selects (`iblk2`). The body reads each
  input window's whole staging buffer, computes one value from them and stores it over the whole output buffer, so after the
  body the output buffer holds that value of the input blocks (`out2_4`) and the input buffers are as found. From this: the
  pipeline's record of what every buffer holds after each point (`dat2`), that an input buffer holds its block at every
  point whether or not the pipeline fetched it there (an unfetched window's index has not moved), and the body's
  specification at a generic point (`body_obligation2`).
-/
import proofs.«103303_j13219909337227_1_alg».proof.Proof.KI.Launch
import proofs.«103303_j13219909337227_1_alg».proof.Proof.Gen.KernelIdeal.Skeleton
import proofs.«103303_j13219909337227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved since the last fetch, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched the block index has not moved since the last fetch, and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched the block index has not moved since the last fetch, and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched the block index has not moved since the last fetch, and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/
abbrev r2_0 : Rect S5000x64 := Rect.unit (s := S5000x64) ![0, 0] S5000x64.size inb_S5000x64_S5000x64_0_0
abbrev r2_1 : Rect S5000x64 := Rect.unit (s := S5000x64) ![0, 0] S5000x64.size inb_S5000x64_S5000x64_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out2_4 (x0 : Vec F S5000x64 .f32) (x1 : Vec F S5000x64 .f32) (x2 : Vec F S64x64 .f32) (x3 : Vec F S1x64 .f32) : Vec F S5000x64 .f32 :=
  View.canon [⟨r2_4, k2_pay1 (View.ld x0 r2_0) (View.ld x1 r2_1) (View.ld x2 r2_2) (View.ld x3 r2_3)⟩]

/-- The one store is over the whole buffer, so every index of the buffer lies in it. -/
theorem cover2_4 (p0 : Vec F S5000x64 .f32) (y : S5000x64.Idx) :
    ∃ pc ∈ ([⟨r2_4, p0⟩] : List (View.Piece (Elt F) S5000x64 .f32)), y ∈ pc.1.set :=
  View.cover_of_tiled [⟨r2_4, p0⟩] S5000x64.size (by rfl) y

/-! ## The body's specification on whole staging buffers -/

set_option maxHeartbeats 1000000 in
/-- The body on whole staging buffers, the inputs' holding `xW` and the output's anything, runs to the continuation
    with the inputs' as they were and the output's at `out2_4` of the inputs'. -/
theorem sound_kernel2 (c : Dev nD) (E : Set ℕ) (i : grid2.Coords) (arg0 : Memref sig .tc .vmem S5000x64 .f32) (harg0 : arg0.IsWhole) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S64x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__layer_kernel i arg0 harg0 arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's record of the buffers -/

/-- What the pipeline of call 2 is told on core `c`: the windows' arrays as the call finds them (`V`); after the body at
    point `t` each input's buffer at its block and the output's at `out2_4` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The record's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the specification on whole buffers applies; the
    rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Tile

end
-- ==== Proof.KI.Tile3.lean ====
/-
  One grid point of pallas_call 3 — the third message-passing layer: a tile of 5000 rows of the state plus the same rows of the aggregated messages, times the whole 64×64 weight, plus the bias row, clamped below at zero — and what the pipeline needs of it, at any element
  instance `F` and at any contents `V` of the TensorCore's buffers when the call is entered.
  A window's block at a point is the rectangle of its array the point's index map selects (`iblk3`). The body reads each
  input window's whole staging buffer, computes one value from them and stores it over the whole output buffer, so after the
  body the output buffer holds that value of the input blocks (`out3_4`) and the input buffers are as found. From this: the
  pipeline's record of what every buffer holds after each point (`dat3`), that an input buffer holds its block at every
  point whether or not the pipeline fetched it there (an unfetched window's index has not moved), and the body's
  specification at a generic point (`body_obligation3`).
-/
import proofs.«103303_j13219909337227_1_alg».proof.Proof.KI.Launch
import proofs.«103303_j13219909337227_1_alg».proof.Proof.Gen.KernelIdeal.Skeleton
import proofs.«103303_j13219909337227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array, as the call finds it, that the index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched the block index has not moved since the last fetch, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where it is not
    fetched the block index has not moved since the last fetch, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where it is not
    fetched the block index has not moved since the last fetch, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: where it is not
    fetched the block index has not moved since the last fetch, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/
abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S64x64 := Rect.unit (s := S64x64) ![0, 0] S64x64.size inb_S64x64_S64x64_0_0
abbrev r3_3 : Rect S1x64 := Rect.unit (s := S1x64) ![0, 0] S1x64.size inb_S1x64_S1x64_0_0
abbrev r3_4 : Rect S5000x64 := Rect.unit (s := S5000x64) ![0, 0] S5000x64.size inb_S5000x64_S5000x64_0_0

/-! ## What the body leaves in the output window's buffer -/

/-- The output buffer after the body, from the input blocks: its one store, of the body's value of the loaded blocks,
    over the whole buffer. -/
def out3_4 (x0 : Vec F S5000x64 .f32) (x1 : Vec F S5000x64 .f32) (x2 : Vec F S64x64 .f32) (x3 : Vec F S1x64 .f32) : Vec F S5000x64 .f32 :=
  View.canon [⟨r3_4, k3_pay1 (View.ld x0 r3_0) (View.ld x1 r3_1) (View.ld x2 r3_2) (View.ld x3 r3_3)⟩]

/-- The one store is over the whole buffer, so every index of the buffer lies in it. -/
theorem cover3_4 (p0 : Vec F S5000x64 .f32) (y : S5000x64.Idx) :
    ∃ pc ∈ ([⟨r3_4, p0⟩] : List (View.Piece (Elt F) S5000x64 .f32)), y ∈ pc.1.set :=
  View.cover_of_tiled [⟨r3_4, p0⟩] S5000x64.size (by rfl) y

/-! ## The body's specification on whole staging buffers -/

set_option maxHeartbeats 1000000 in
/-- The body on whole staging buffers, the inputs' holding `xW` and the output's anything, runs to the continuation
    with the inputs' as they were and the output's at `out3_4` of the inputs'. -/
theorem sound_kernel3 (c : Dev nD) (E : Set ℕ) (i : grid3.Coords) (arg0 : Memref sig .tc .vmem S5000x64 .f32) (harg0 : arg0.IsWhole) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S64x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__layer_kernel i arg0 harg0 arg1 harg1 arg2 harg2 arg3 harg3 arg4 harg4) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's record of the buffers -/

/-- What the pipeline of call 3 is told on core `c`: the windows' arrays as the call finds them (`V`); after the body at
    point `t` each input's buffer at its block and the output's at `out3_4` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The record's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the specification on whole buffers applies; the
    rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Tile

end
-- ==== Proof.KI.Run.lean ====
/-
  The whole run of @main on the TensorCores, at any element instance `F`: five stretches of host operations with the four
  pallas_calls between them.
  The contents of every unscoped buffer at each of the ten boundaries is a fold from the launch memory (`W0` … `W9`): a host
  stretch applies its operations in order; a pallas_call leaves each of its windows' arrays at what its pipeline's
  write-backs leave (an input window's array as found; the output window's array with each grid point's block written back)
  and touches nothing else. So a call changes one array only, its output's (`keep0` … `keep3`), and since no host operation
  and no call writes an argument, every argument array reads the same at the last boundary as at launch.
  Each call is entered holding every unscoped buffer at the boundary's contents and left holding them at the next
  boundary's; the generator register and the core's debts (none) ride along. The run theorem: every weakly fair execution
  terminates, nothing faults, and the final memory holds every unscoped buffer at `W9`; the frame statement is that run read
  at the argument arrays.
-/
import proofs.«103303_j13219909337227_1_alg».proof.Proof.KI.Tile0
import proofs.«103303_j13219909337227_1_alg».proof.Proof.KI.Tile1
import proofs.«103303_j13219909337227_1_alg».proof.Proof.KI.Tile2
import proofs.«103303_j13219909337227_1_alg».proof.Proof.KI.Tile3
import proofs.«103303_j13219909337227_1_alg».proof.Proof.KI.Regions

set_option maxRecDepth 16384

noncomputable section

namespace Cert.KernelIdeal.Tile

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
theorem W1_of (c : Dev nD) (r : Ref sig .tc) (h : r ∉ hostOps0_W) : W1 m ρ c r = W0 m ρ c r :=
  StableHlo.after_of_writes_sub hostOps0 _ hostOps0_writes h

/-- The contents call 0 is entered at, read at the TensorCore's references. -/
abbrev En1 : (c : Dev nD) → (b : Ref sig .tc) → Buf (Elt F) ((c : Thread nD τ).loc b) := fun c b => W1 m ρ c b
/-- At call 0's exit: its windows' arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)
/-- Call 0 changes one array only, its output window's: an input window's array ends as found (nothing is written back
    to it) and a buffer that is no window's array is not touched. -/
theorem keep0 (c : Dev nD) (b : Ref sig .tc) (hb : b ≠ main_v5) : W2 m ρ c b = W1 m ρ c b := by
  by_cases h : ∃ w, Pipeline.arrRef spec0 w = b
  · obtain ⟨w, rfl⟩ := h
    have hw : (cfg0.win w).isOut = false :=
      (by decide : ∀ w : Fin 4, Pipeline.arrRef spec0 w ≠ main_v5 → (cfg0.win w).isOut = false) w hb
    exact (W2_arr m ρ c w).trans (((dat0 (En1 m ρ) c).arrAt_in w hw _).trans (A_eq0 (En1 m ρ) c w))
  · exact W2_of_ne m ρ c b fun w e => h ⟨w, e⟩

/-- After the next host stretch. -/
abbrev W3 : Dev nD → Valuation τ sig (Elt F) := fun c => StableHlo.after hostOps1 (W2 m ρ c)
theorem W3_of (c : Dev nD) (r : Ref sig .tc) (h : r ∉ hostOps1_W) : W3 m ρ c r = W2 m ρ c r :=
  StableHlo.after_of_writes_sub hostOps1 _ hostOps1_writes h

/-- The contents call 1 is entered at, read at the TensorCore's references. -/
abbrev En3 : (c : Dev nD) → (b : Ref sig .tc) → Buf (Elt F) ((c : Thread nD τ).loc b) := fun c b => W3 m ρ c b
/-- At call 1's exit: its windows' arrays at what the pipeline leaves, every other buffer as entered. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)
/-- Call 1 changes one array only, its output window's: an input window's array ends as found (nothing is written back
    to it) and a buffer that is no window's array is not touched. -/
theorem keep1 (c : Dev nD) (b : Ref sig .tc) (hb : b ≠ main_v19) : W4 m ρ c b = W3 m ρ c b := by
  by_cases h : ∃ w, Pipeline.arrRef spec1 w = b
  · obtain ⟨w, rfl⟩ := h
    have hw : (cfg1.win w).isOut = false :=
      (by decide : ∀ w : Fin 5, Pipeline.arrRef spec1 w ≠ main_v19 → (cfg1.win w).isOut = false) w hb
    exact (W4_arr m ρ c w).trans (((dat1 (En3 m ρ) c).arrAt_in w hw _).trans (A_eq1 (En3 m ρ) c w))
  · exact W4_of_ne m ρ c b fun w e => h ⟨w, e⟩

/-- After the next host stretch. -/
abbrev W5 : Dev nD → Valuation τ sig (Elt F) := fun c => StableHlo.after hostOps2 (W4 m ρ c)
theorem W5_of (c : Dev nD) (r : Ref sig .tc) (h : r ∉ hostOps2_W) : W5 m ρ c r = W4 m ρ c r :=
  StableHlo.after_of_writes_sub hostOps2 _ hostOps2_writes h

/-- The contents call 2 is entered at, read at the TensorCore's references. -/
abbrev En5 : (c : Dev nD) → (b : Ref sig .tc) → Buf (Elt F) ((c : Thread nD τ).loc b) := fun c b => W5 m ρ c b
/-- At call 2's exit: its windows' arrays at what the pipeline leaves, every other buffer as entered. -/
def W6 (c : Dev nD) : Valuation τ sig (Elt F) :=
  Pipeline.withArrays spec2 c (W5 m ρ c) fun w => (dat2 (En5 m ρ) c).arrAt w cfg2.N
theorem W6_arr (c : Dev nD) (w : Fin cfg2.W) :
    W6 m ρ c (Proc.devRef .tc (Pipeline.arrRef spec2 w)) = (dat2 (En5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev Ex6 : (c : Dev nD) → (b : Ref sig .tc) → Buf (Elt F) ((c : Thread nD τ).loc b) := fun c b => W6 m ρ c b
theorem hF2 (c : Dev nD) (w : Fin cfg2.W) : (dat2 (En5 m ρ) c).arrAt w cfg2.N = Ex6 m ρ c (Pipeline.arrRef spec2 w) :=
  (W6_arr m ρ c w).symm
theorem hrest2 (c : Dev nD) : ∀ b, b ∉ Finset.univ.image (Pipeline.arrRef spec2) → Ex6 m ρ c b = En5 m ρ c b :=
  fun b hb => W6_of_ne m ρ c b fun w e => hb (Finset.mem_image.mpr ⟨w, Finset.mem_univ _, e⟩)
/-- Call 2 changes one array only, its output window's: an input window's array ends as found (nothing is written back
    to it) and a buffer that is no window's array is not touched. -/
theorem keep2 (c : Dev nD) (b : Ref sig .tc) (hb : b ≠ main_v33) : W6 m ρ c b = W5 m ρ c b := by
  by_cases h : ∃ w, Pipeline.arrRef spec2 w = b
  · obtain ⟨w, rfl⟩ := h
    have hw : (cfg2.win w).isOut = false :=
      (by decide : ∀ w : Fin 5, Pipeline.arrRef spec2 w ≠ main_v33 → (cfg2.win w).isOut = false) w hb
    exact (W6_arr m ρ c w).trans (((dat2 (En5 m ρ) c).arrAt_in w hw _).trans (A_eq2 (En5 m ρ) c w))
  · exact W6_of_ne m ρ c b fun w e => h ⟨w, e⟩

/-- After the next host stretch. -/
abbrev W7 : Dev nD → Valuation τ sig (Elt F) := fun c => StableHlo.after hostOps3 (W6 m ρ c)
theorem W7_of (c : Dev nD) (r : Ref sig .tc) (h : r ∉ hostOps3_W) : W7 m ρ c r = W6 m ρ c r :=
  StableHlo.after_of_writes_sub hostOps3 _ hostOps3_writes h

/-- The contents call 3 is entered at, read at the TensorCore's references. -/
abbrev En7 : (c : Dev nD) → (b : Ref sig .tc) → Buf (Elt F) ((c : Thread nD τ).loc b) := fun c b => W7 m ρ c b
/-- At call 3's exit: its windows' arrays at what the pipeline leaves, every other buffer as entered. -/
def W8 (c : Dev nD) : Valuation τ sig (Elt F) :=
  Pipeline.withArrays spec3 c (W7 m ρ c) fun w => (dat3 (En7 m ρ) c).arrAt w cfg3.N
theorem W8_arr (c : Dev nD) (w : Fin cfg3.W) :
    W8 m ρ c (Proc.devRef .tc (Pipeline.arrRef spec3 w)) = (dat3 (En7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev Ex8 : (c : Dev nD) → (b : Ref sig .tc) → Buf (Elt F) ((c : Thread nD τ).loc b) := fun c b => W8 m ρ c b
theorem hF3 (c : Dev nD) (w : Fin cfg3.W) : (dat3 (En7 m ρ) c).arrAt w cfg3.N = Ex8 m ρ c (Pipeline.arrRef spec3 w) :=
  (W8_arr m ρ c w).symm
theorem hrest3 (c : Dev nD) : ∀ b, b ∉ Finset.univ.image (Pipeline.arrRef spec3) → Ex8 m ρ c b = En7 m ρ c b :=
  fun b hb => W8_of_ne m ρ c b fun w e => hb (Finset.mem_image.mpr ⟨w, Finset.mem_univ _, e⟩)
/-- Call 3 changes one array only, its output window's: an input window's array ends as found (nothing is written back
    to it) and a buffer that is no window's array is not touched. -/
theorem keep3 (c : Dev nD) (b : Ref sig .tc) (hb : b ≠ main_v47) : W8 m ρ c b = W7 m ρ c b := by
  by_cases h : ∃ w, Pipeline.arrRef spec3 w = b
  · obtain ⟨w, rfl⟩ := h
    have hw : (cfg3.win w).isOut = false :=
      (by decide : ∀ w : Fin 5, Pipeline.arrRef spec3 w ≠ main_v47 → (cfg3.win w).isOut = false) w hb
    exact (W8_arr m ρ c w).trans (((dat3 (En7 m ρ) c).arrAt_in w hw _).trans (A_eq3 (En7 m ρ) c w))
  · exact W8_of_ne m ρ c b fun w e => h ⟨w, e⟩

/-- After the next host stretch. -/
abbrev W9 : Dev nD → Valuation τ sig (Elt F) := fun c => StableHlo.after hostOps4 (W8 m ρ c)
theorem W9_of (c : Dev nD) (r : Ref sig .tc) (h : r ∉ hostOps4_W) : W9 m ρ c r = W8 m ρ c r :=
  StableHlo.after_of_writes_sub hostOps4 _ hostOps4_writes h

/-! ## The arguments end as launched -/

theorem W9_main_arg0 (c : Dev nD) : W9 m ρ c (Proc.devRef .tc main_arg0) = m ((c : Thread nD τ).loc main_arg0) :=
  (W9_of m ρ c main_arg0 (by decide)).trans <| (keep3 m ρ c main_arg0 (by decide)).trans <| (W7_of m ρ c main_arg0 (by decide)).trans <|
  (keep2 m ρ c main_arg0 (by decide)).trans <| (W5_of m ρ c main_arg0 (by decide)).trans <| (keep1 m ρ c main_arg0 (by decide)).trans <|
  (W3_of m ρ c main_arg0 (by decide)).trans <| (keep0 m ρ c main_arg0 (by decide)).trans <| (W1_of m ρ c main_arg0 (by decide)).trans rfl

theorem W9_main_arg1 (c : Dev nD) : W9 m ρ c (Proc.devRef .tc main_arg1) = m ((c : Thread nD τ).loc main_arg1) :=
  (W9_of m ρ c main_arg1 (by decide)).trans <| (keep3 m ρ c main_arg1 (by decide)).trans <| (W7_of m ρ c main_arg1 (by decide)).trans <|
  (keep2 m ρ c main_arg1 (by decide)).trans <| (W5_of m ρ c main_arg1 (by decide)).trans <| (keep1 m ρ c main_arg1 (by decide)).trans <|
  (W3_of m ρ c main_arg1 (by decide)).trans <| (keep0 m ρ c main_arg1 (by decide)).trans <| (W1_of m ρ c main_arg1 (by decide)).trans rfl

theorem W9_main_arg2 (c : Dev nD) : W9 m ρ c (Proc.devRef .tc main_arg2) = m ((c : Thread nD τ).loc main_arg2) :=
  (W9_of m ρ c main_arg2 (by decide)).trans <| (keep3 m ρ c main_arg2 (by decide)).trans <| (W7_of m ρ c main_arg2 (by decide)).trans <|
  (keep2 m ρ c main_arg2 (by decide)).trans <| (W5_of m ρ c main_arg2 (by decide)).trans <| (keep1 m ρ c main_arg2 (by decide)).trans <|
  (W3_of m ρ c main_arg2 (by decide)).trans <| (keep0 m ρ c main_arg2 (by decide)).trans <| (W1_of m ρ c main_arg2 (by decide)).trans rfl

theorem W9_main_arg3 (c : Dev nD) : W9 m ρ c (Proc.devRef .tc main_arg3) = m ((c : Thread nD τ).loc main_arg3) :=
  (W9_of m ρ c main_arg3 (by decide)).trans <| (keep3 m ρ c main_arg3 (by decide)).trans <| (W7_of m ρ c main_arg3 (by decide)).trans <|
  (keep2 m ρ c main_arg3 (by decide)).trans <| (W5_of m ρ c main_arg3 (by decide)).trans <| (keep1 m ρ c main_arg3 (by decide)).trans <|
  (W3_of m ρ c main_arg3 (by decide)).trans <| (keep0 m ρ c main_arg3 (by decide)).trans <| (W1_of m ρ c main_arg3 (by decide)).trans rfl

theorem W9_main_arg4 (c : Dev nD) : W9 m ρ c (Proc.devRef .tc main_arg4) = m ((c : Thread nD τ).loc main_arg4) :=
  (W9_of m ρ c main_arg4 (by decide)).trans <| (keep3 m ρ c main_arg4 (by decide)).trans <| (W7_of m ρ c main_arg4 (by decide)).trans <|
  (keep2 m ρ c main_arg4 (by decide)).trans <| (W5_of m ρ c main_arg4 (by decide)).trans <| (keep1 m ρ c main_arg4 (by decide)).trans <|
  (W3_of m ρ c main_arg4 (by decide)).trans <| (keep0 m ρ c main_arg4 (by decide)).trans <| (W1_of m ρ c main_arg4 (by decide)).trans rfl

theorem W9_main_arg5 (c : Dev nD) : W9 m ρ c (Proc.devRef .tc main_arg5) = m ((c : Thread nD τ).loc main_arg5) :=
  (W9_of m ρ c main_arg5 (by decide)).trans <| (keep3 m ρ c main_arg5 (by decide)).trans <| (W7_of m ρ c main_arg5 (by decide)).trans <|
  (keep2 m ρ c main_arg5 (by decide)).trans <| (W5_of m ρ c main_arg5 (by decide)).trans <| (keep1 m ρ c main_arg5 (by decide)).trans <|
  (W3_of m ρ c main_arg5 (by decide)).trans <| (keep0 m ρ c main_arg5 (by decide)).trans <| (W1_of m ρ c main_arg5 (by decide)).trans rfl

theorem W9_main_arg6 (c : Dev nD) : W9 m ρ c (Proc.devRef .tc main_arg6) = m ((c : Thread nD τ).loc main_arg6) :=
  (W9_of m ρ c main_arg6 (by decide)).trans <| (keep3 m ρ c main_arg6 (by decide)).trans <| (W7_of m ρ c main_arg6 (by decide)).trans <|
  (keep2 m ρ c main_arg6 (by decide)).trans <| (W5_of m ρ c main_arg6 (by decide)).trans <| (keep1 m ρ c main_arg6 (by decide)).trans <|
  (W3_of m ρ c main_arg6 (by decide)).trans <| (keep0 m ρ c main_arg6 (by decide)).trans <| (W1_of m ρ c main_arg6 (by decide)).trans rfl

theorem W9_main_arg7 (c : Dev nD) : W9 m ρ c (Proc.devRef .tc main_arg7) = m ((c : Thread nD τ).loc main_arg7) :=
  (W9_of m ρ c main_arg7 (by decide)).trans <| (keep3 m ρ c main_arg7 (by decide)).trans <| (W7_of m ρ c main_arg7 (by decide)).trans <|
  (keep2 m ρ c main_arg7 (by decide)).trans <| (W5_of m ρ c main_arg7 (by decide)).trans <| (keep1 m ρ c main_arg7 (by decide)).trans <|
  (W3_of m ρ c main_arg7 (by decide)).trans <| (keep0 m ρ c main_arg7 (by decide)).trans <| (W1_of m ρ c main_arg7 (by decide)).trans rfl

theorem W9_main_arg8 (c : Dev nD) : W9 m ρ c (Proc.devRef .tc main_arg8) = m ((c : Thread nD τ).loc main_arg8) :=
  (W9_of m ρ c main_arg8 (by decide)).trans <| (keep3 m ρ c main_arg8 (by decide)).trans <| (W7_of m ρ c main_arg8 (by decide)).trans <|
  (keep2 m ρ c main_arg8 (by decide)).trans <| (W5_of m ρ c main_arg8 (by decide)).trans <| (keep1 m ρ c main_arg8 (by decide)).trans <|
  (W3_of m ρ c main_arg8 (by decide)).trans <| (keep0 m ρ c main_arg8 (by decide)).trans <| (W1_of m ρ c main_arg8 (by decide)).trans rfl

theorem W9_main_arg9 (c : Dev nD) : W9 m ρ c (Proc.devRef .tc main_arg9) = m ((c : Thread nD τ).loc main_arg9) :=
  (W9_of m ρ c main_arg9 (by decide)).trans <| (keep3 m ρ c main_arg9 (by decide)).trans <| (W7_of m ρ c main_arg9 (by decide)).trans <|
  (keep2 m ρ c main_arg9 (by decide)).trans <| (W5_of m ρ c main_arg9 (by decide)).trans <| (keep1 m ρ c main_arg9 (by decide)).trans <|
  (W3_of m ρ c main_arg9 (by decide)).trans <| (keep0 m ρ c main_arg9 (by decide)).trans <| (W1_of m ρ c main_arg9 (by decide)).trans rfl

theorem W9_main_arg10 (c : Dev nD) : W9 m ρ c (Proc.devRef .tc main_arg10) = m ((c : Thread nD τ).loc main_arg10) :=
  (W9_of m ρ c main_arg10 (by decide)).trans <| (keep3 m ρ c main_arg10 (by decide)).trans <| (W7_of m ρ c main_arg10 (by decide)).trans <|
  (keep2 m ρ c main_arg10 (by decide)).trans <| (W5_of m ρ c main_arg10 (by decide)).trans <| (keep1 m ρ c main_arg10 (by decide)).trans <|
  (W3_of m ρ c main_arg10 (by decide)).trans <| (keep0 m ρ c main_arg10 (by decide)).trans <| (W1_of m ρ c main_arg10 (by decide)).trans rfl

/-! ## The pipelines' records and what rides beside the buffers -/

/-- Every pipeline's record, each at its call's entry contents. -/
def pdats : (p : Fin 4) → (c : Dev nD) → Dat τ (Elt F) Unit ℕ (UR sig nD τ) ℕ (Pipeline.pin (pcfgs (F := F)) adm p) c
  | ⟨0, _⟩ => fun c => dat0 (En1 m ρ) c
  | ⟨1, _⟩ => fun c => dat1 (En3 m ρ) c
  | ⟨2, _⟩ => fun c => dat2 (En5 m ρ) c
  | ⟨3, _⟩ => fun c => dat3 (En7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0 over the thread state: entered from every unscoped buffer at `W1`, left at `W2`. Its arrays are split out of
    the unscoped buffers and put back at the exit contents; the generator register goes into the pipeline's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W3`, left at `W4`. Its arrays are split out of
    the unscoped buffers and put back at the exit contents; the generator register goes into the pipeline's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W5`, left at `W6`. Its arrays are split out of
    the unscoped buffers and put back at the exit contents; the generator register goes into the pipeline's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W7`, left at `W8`. Its arrays are split out of
    the unscoped buffers and put back at the exit contents; the generator register goes into the pipeline's invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (En7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En7 m ρ c) (Ex8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option backward.isDefEq.respectTransparency.types false in
/-- THE RUN: from any memory with zero counters, every weakly fair execution of @main on the TensorCores terminates,
    nothing faulting, and the final memory holds every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: the run read at the argument arrays, none of which a host operation or a call writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c)⟩)
    (run_all m ρ)

end Cert.KernelIdeal.Tile

end
-- ==== Proof.Spec.lean ====
/-
  What both programs compute, as whole-array functions at any element instance: a graph network's four node states.
  The first state is the input projection, `max(x · Wi + bi, 0)` row by row. Each later state is one round of message
  passing on the previous one `h`: every edge carries its source node's row of `h` scaled by the edge's weight, the
  messages are summed into their target nodes (`messages`), and the state becomes `max((h + messages) · W + b, 0)`
  (`layer`). The result stacks the four states. The functions are spelt with the host operations of the reference
  program, so that the reference's composed result is `out` of its arguments by unfolding; the message step is one
  function of the state it is applied to, never opened.
-/
import proofs.«103303_j13219909337227_1_alg».proof.ReferenceIdeal
import proofs.«103303_j13219909337227_1_alg».proof.Proof.Gen.ReferenceIdeal

noncomputable section

namespace Cert.Gnn

open Cert.ReferenceIdeal Cert.ReferenceIdeal.Gen Idealize.ShloMosaic

variable {F : FTy → Type} [FloatOps F]

/-- The all-zero node-by-feature array. -/
def zeroRows : (⟨S100000x64, .f32⟩ : BufTy).Contents (Elt F) :=
  broadcastInDim S100000x64 ![] bcast_S_S100000x64 (constant S_ .f32 0x00000000#32)

/-- Clamp below at zero, entry by entry. -/
def relu (v : (⟨S100000x64, .f32⟩ : BufTy).Contents (Elt F)) : (⟨S100000x64, .f32⟩ : BufTy).Contents (Elt F) :=
  maximumf v zeroRows

/-- A bias vector as a one-row matrix. -/
def biasRow (b : (⟨S64, .f32⟩ : BufTy).Contents (Elt F)) : (⟨S1x64, .f32⟩ : BufTy).Contents (Elt F) :=
  broadcastInDim S1x64 ![1] bcast_S64_S1x64_1 b

/-- A one-row matrix repeated down every node's row. -/
def biasRows (b1 : (⟨S1x64, .f32⟩ : BufTy).Contents (Elt F)) : (⟨S100000x64, .f32⟩ : BufTy).Contents (Elt F) :=
  broadcastInDim S100000x64 ![0, 1] bcast_S1x64_S100000x64_0_1 b1

/-- The input projection `max(x · Wi + b, 0)`. -/
def proj (x : (⟨S100000x128, .f32⟩ : BufTy).Contents (Elt F)) (Wi : (⟨S128x64, .f32⟩ : BufTy).Contents (Elt F)) (b1 : (⟨S1x64, .f32⟩ : BufTy).Contents (Elt F)) : (⟨S100000x64, .f32⟩ : BufTy).Contents (Elt F) :=
  relu (addf (Host.dotGeneral dot_S100000x128_S128x64_S100000x64_1_0_0_1_n_n none x Wi) (biasRows b1))

/-- One dense step on a state and its aggregated messages: `max((h + msg) · W + b, 0)`. -/
def layer (h msg : (⟨S100000x64, .f32⟩ : BufTy).Contents (Elt F)) (W : (⟨S64x64, .f32⟩ : BufTy).Contents (Elt F)) (b1 : (⟨S1x64, .f32⟩ : BufTy).Contents (Elt F)) : (⟨S100000x64, .f32⟩ : BufTy).Contents (Elt F) :=
  relu (addf (Host.dotGeneral dot_S100000x64_S64x64_S100000x64_1_0_0_1_n_n none (addf h msg) W) (biasRows b1))

/-- The edges' source nodes: row 0 of the edge index. -/
def src (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' target nodes: row 1 of the edge index. -/
def tgt (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The aggregated messages of a state: each edge's source row (a negative source index counted from the end), scaled by
    the edge's weight, summed into the edge's target row of an all-zero array. -/
def messages (h : (⟨S100000x64, .f32⟩ : BufTy).Contents (Elt F)) (s t : (⟨S1600000, .i32⟩ : BufTy).Contents (Elt F)) (ea : (⟨S1600000x1, .f32⟩ : BufTy).Contents (Elt F)) : (⟨S100000x64, .f32⟩ : BufTy).Contents (Elt F) :=
  Host.scatterAdd scatter_S100000x64_S1600000x1_S1600000x64_1_0_0_1 zeroRows (broadcastInDim S1600000x1 ![0] bcast_S1600000_S1600000x1_0 t) (mulf (Host.gather gather_S100000x64_S1600000x1_S1600000x64_1_0_n_n_0_1_164 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))) (broadcastInDim S1600000x64 ![0, 1] bcast_S1600000x1_S1600000x64_0_1 ea))

/-- A state as one slab of the stacked result. -/
def slab (h : (⟨S100000x64, .f32⟩ : BufTy).Contents (Elt F)) : (⟨S1x100000x64, .f32⟩ : BufTy).Contents (Elt F) :=
  broadcastInDim S1x100000x64 ![1, 2] bcast_S100000x64_S1x100000x64_1_2 h

/-- Four states stacked along a new leading axis. -/
def stack (h0 h1 h2 h3 : (⟨S100000x64, .f32⟩ : BufTy).Contents (Elt F)) : (⟨S4x100000x64, .f32⟩ : BufTy).Contents (Elt F) :=
  concatenate S4x100000x64 0 [⟨S1x100000x64, slab h0⟩, ⟨S1x100000x64, slab h1⟩, ⟨S1x100000x64, slab h2⟩, ⟨S1x100000x64, slab h3⟩] concatenates_S1x100000x64_S1x100000x64_S1x100000x64_S1x100000x64_S4x100000x64_d0

/-- One round of message passing from a state. -/
def step (h : (⟨S100000x64, .f32⟩ : BufTy).Contents (Elt F)) (ei : (⟨S2x1600000, .i32⟩ : BufTy).Contents (Elt F)) (ea : (⟨S1600000x1, .f32⟩ : BufTy).Contents (Elt F)) (W : (⟨S64x64, .f32⟩ : BufTy).Contents (Elt F)) (b : (⟨S64, .f32⟩ : BufTy).Contents (Elt F)) : (⟨S100000x64, .f32⟩ : BufTy).Contents (Elt F) :=
  layer h (messages h (src ei) (tgt ei) ea) W (biasRow b)

/-- The first state. -/
def state0 (x : (⟨S100000x128, .f32⟩ : BufTy).Contents (Elt F)) (Wi : (⟨S128x64, .f32⟩ : BufTy).Contents (Elt F)) (bi : (⟨S64, .f32⟩ : BufTy).Contents (Elt F)) : (⟨S100000x64, .f32⟩ : BufTy).Contents (Elt F) :=
  proj x Wi (biasRow bi)

/-- The stacked result of the whole network. -/
def out (x : (⟨S100000x128, .f32⟩ : BufTy).Contents (Elt F)) (ei : (⟨S2x1600000, .i32⟩ : BufTy).Contents (Elt F)) (ea : (⟨S1600000x1, .f32⟩ : BufTy).Contents (Elt F)) (Wi : (⟨S128x64, .f32⟩ : BufTy).Contents (Elt F)) (bi : (⟨S64, .f32⟩ : BufTy).Contents (Elt F))
    (W1 : (⟨S64x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F)) (W3 : (⟨S64x64, .f32⟩ : BufTy).Contents (Elt F)) (b3 : (⟨S64, .f32⟩ : BufTy).Contents (Elt F)) : (⟨S4x100000x64, .f32⟩ : BufTy).Contents (Elt F) :=
  stack (state0 x Wi bi) (step (state0 x Wi bi) ei ea W1 b1) (step (step (state0 x Wi bi) ei ea W1 b1) ei ea W2 b2)
    (step (step (step (state0 x Wi bi) ei ea W1 b1) ei ea W2 b2) ei ea W3 b3)

end Cert.Gnn

end
-- ==== Proof.KV.Pay.lean ====
/-
  The two kernel bodies' values read at an index, at the exact instance.
  On a tile of 5000 node rows the projection's body computes `max(xtile · Wi + brow, 0)` and a layer's body
  `max((htile + mtile) · W + brow, 0)`, the format changes being the identity and the matrix product a sum over the
  contraction index started from zero. The whole-array functions of the network (`Cert.Gnn.proj`, `Cert.Gnn.layer`) read
  at an index are the same expressions with the whole arrays in place of the tiles. So if a tile's entries are the arrays'
  entries at the placed indices (`e`), the body's value at a tile index is the whole-array function at its placed index: the
  two sums run over the same contraction index and agree term by term.
-/
import proofs.«103303_j13219909337227_1_alg».proof.Proof.Gen.KernelIdeal.Skeleton
import proofs.«103303_j13219909337227_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic

/-- The tile's and the whole array's matrix products, for a layer (contraction over 64) and for the projection (over 128). -/
abbrev dT : DotDims S5000x64 S64x64 S5000x64 := dot_S5000x64_S64x64_S5000x64_1_0_0_1_n_n
abbrev dA : DotDims Cert.ReferenceIdeal.S100000x64 Cert.ReferenceIdeal.S64x64 Cert.ReferenceIdeal.S100000x64 := Cert.ReferenceIdeal.dot_S100000x64_S64x64_S100000x64_1_0_0_1_n_n
abbrev dT0 : DotDims S5000x128 S128x64 S5000x64 := dot_S5000x128_S128x64_S5000x64_1_0_0_1_n_n
abbrev dA0 : DotDims Cert.ReferenceIdeal.S100000x128 Cert.ReferenceIdeal.S128x64 Cert.ReferenceIdeal.S100000x64 := Cert.ReferenceIdeal.dot_S100000x128_S128x64_S100000x64_1_0_0_1_n_n

/-! ## Where a matrix product reads its factors: row of the output and the contraction index; the contraction index and
    the column of the output -/

theorem dT_lhs0 (i : S5000x64.Idx) (q : dT.contr.Idx) : (dT.lhsIdx i q 0).val = (i 0).val := by
  unfold DotDims.lhsIdx
  rw [dif_neg (show ¬(0 : Fin S5000x64.rank) ∈ dT.lhsBatch by decide), dif_pos (show (0 : Fin S5000x64.rank) ∈ dT.lhsNonContracting by decide)]
  rfl
theorem dT_lhs1 (i : S5000x64.Idx) (q : dT.contr.Idx) : (dT.lhsIdx i q 1).val = (q ⟨0, by decide⟩).val :=
  dT.lhsIdx_val_of_single rfl i q
theorem dT_rhs0 (i : S5000x64.Idx) (q : dT.contr.Idx) : (dT.rhsIdx i q 0).val = (q ⟨0, by decide⟩).val :=
  dT.rhsIdx_val_of_single rfl i q
theorem dT_rhs1 (i : S5000x64.Idx) (q : dT.contr.Idx) : (dT.rhsIdx i q 1).val = (i 1).val := by
  unfold DotDims.rhsIdx
  rw [dif_neg (show ¬(1 : Fin S64x64.rank) ∈ dT.rhsBatch by decide), dif_pos (show (1 : Fin S64x64.rank) ∈ dT.rhsNonContracting by decide)]
  rfl

theorem dA_lhs0 (i : Cert.ReferenceIdeal.S100000x64.Idx) (q : dA.contr.Idx) : (dA.lhsIdx i q 0).val = (i 0).val := by
  unfold DotDims.lhsIdx
  rw [dif_neg (show ¬(0 : Fin Cert.ReferenceIdeal.S100000x64.rank) ∈ dA.lhsBatch by decide), dif_pos (show (0 : Fin Cert.ReferenceIdeal.S100000x64.rank) ∈ dA.lhsNonContracting by decide)]
  rfl
theorem dA_lhs1 (i : Cert.ReferenceIdeal.S100000x64.Idx) (q : dA.contr.Idx) : (dA.lhsIdx i q 1).val = (q ⟨0, by decide⟩).val :=
  dA.lhsIdx_val_of_single rfl i q
theorem dA_rhs0 (i : Cert.ReferenceIdeal.S100000x64.Idx) (q : dA.contr.Idx) : (dA.rhsIdx i q 0).val = (q ⟨0, by decide⟩).val :=
  dA.rhsIdx_val_of_single rfl i q
theorem dA_rhs1 (i : Cert.ReferenceIdeal.S100000x64.Idx) (q : dA.contr.Idx) : (dA.rhsIdx i q 1).val = (i 1).val := by
  unfold DotDims.rhsIdx
  rw [dif_neg (show ¬(1 : Fin Cert.ReferenceIdeal.S64x64.rank) ∈ dA.rhsBatch by decide), dif_pos (show (1 : Fin Cert.ReferenceIdeal.S64x64.rank) ∈ dA.rhsNonContracting by decide)]
  rfl

theorem dT0_lhs0 (i : S5000x64.Idx) (q : dT0.contr.Idx) : (dT0.lhsIdx i q 0).val = (i 0).val := by
  unfold DotDims.lhsIdx
  rw [dif_neg (show ¬(0 : Fin S5000x128.rank) ∈ dT0.lhsBatch by decide), dif_pos (show (0 : Fin S5000x128.rank) ∈ dT0.lhsNonContracting by decide)]
  rfl
theorem dT0_lhs1 (i : S5000x64.Idx) (q : dT0.contr.Idx) : (dT0.lhsIdx i q 1).val = (q ⟨0, by decide⟩).val :=
  dT0.lhsIdx_val_of_single rfl i q
theorem dT0_rhs0 (i : S5000x64.Idx) (q : dT0.contr.Idx) : (dT0.rhsIdx i q 0).val = (q ⟨0, by decide⟩).val :=
  dT0.rhsIdx_val_of_single rfl i q
theorem dT0_rhs1 (i : S5000x64.Idx) (q : dT0.contr.Idx) : (dT0.rhsIdx i q 1).val = (i 1).val := by
  unfold DotDims.rhsIdx
  rw [dif_neg (show ¬(1 : Fin S128x64.rank) ∈ dT0.rhsBatch by decide), dif_pos (show (1 : Fin S128x64.rank) ∈ dT0.rhsNonContracting by decide)]
  rfl

theorem dA0_lhs0 (i : Cert.ReferenceIdeal.S100000x64.Idx) (q : dA0.contr.Idx) : (dA0.lhsIdx i q 0).val = (i 0).val := by
  unfold DotDims.lhsIdx
  rw [dif_neg (show ¬(0 : Fin Cert.ReferenceIdeal.S100000x128.rank) ∈ dA0.lhsBatch by decide), dif_pos (show (0 : Fin Cert.ReferenceIdeal.S100000x128.rank) ∈ dA0.lhsNonContracting by decide)]
  rfl
theorem dA0_lhs1 (i : Cert.ReferenceIdeal.S100000x64.Idx) (q : dA0.contr.Idx) : (dA0.lhsIdx i q 1).val = (q ⟨0, by decide⟩).val :=
  dA0.lhsIdx_val_of_single rfl i q
theorem dA0_rhs0 (i : Cert.ReferenceIdeal.S100000x64.Idx) (q : dA0.contr.Idx) : (dA0.rhsIdx i q 0).val = (q ⟨0, by decide⟩).val :=
  dA0.rhsIdx_val_of_single rfl i q
theorem dA0_rhs1 (i : Cert.ReferenceIdeal.S100000x64.Idx) (q : dA0.contr.Idx) : (dA0.rhsIdx i q 1).val = (i 1).val := by
  unfold DotDims.rhsIdx
  rw [dif_neg (show ¬(1 : Fin Cert.ReferenceIdeal.S128x64.rank) ∈ dA0.rhsBatch by decide), dif_pos (show (1 : Fin Cert.ReferenceIdeal.S128x64.rank) ∈ dA0.rhsNonContracting by decide)]
  rfl

/-- The bias row's index under a column. -/
abbrev rowIdx (q : Fin 64) : S1x64.Idx := fun a => match a with
  | ⟨0, _⟩ => ⟨0, Nat.one_pos⟩
  | ⟨1, _⟩ => ⟨q.val, q.isLt⟩

/-- The bias broadcast down a tile, read at an index, is the bias row at the index's column. -/
theorem bias_tile (x3 : Vec Ideal S1x64 .f32) (j : S5000x64.Idx) :
    broadcastTo S5000x64 (shapeCast S1x64 x3 shapeCasts_S1x64_S1x64) broadcasts_S1x64_S5000x64 j = x3 (rowIdx ⟨(j 1).val, (j 1).isLt⟩) := by
  rw [shapeCast_self]
  exact broadcastTo_apply x3 broadcasts_S1x64_S5000x64 j (rowIdx ⟨(j 1).val, (j 1).isLt⟩) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- The bias broadcast down the whole array, read at an index, is the bias row at the index's column. -/
theorem bias_array (b1 : (⟨Cert.ReferenceIdeal.S1x64, .f32⟩ : BufTy).Contents (Elt Ideal)) (i : Cert.ReferenceIdeal.S100000x64.Idx) :
    Cert.Gnn.biasRows (F := Ideal) b1 i = b1 (rowIdx ⟨(i 1).val, (i 1).isLt⟩) := by
  unfold Cert.Gnn.biasRows
  exact broadcastInDim_apply _ Cert.ReferenceIdeal.Gen.bcast_S1x64_S100000x64_0_1 b1 i (rowIdx ⟨(i 1).val, (i 1).isLt⟩) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The all-zero array read at an index is the zero word. -/
theorem zero_array (i : Cert.ReferenceIdeal.S100000x64.Idx) : Cert.Gnn.zeroRows (F := Ideal) i = Ideal.ofBits .f32 0x00000000#32 := by
  unfold Cert.Gnn.zeroRows
  exact broadcastInDim_apply _ Cert.ReferenceIdeal.Gen.bcast_S_S100000x64 (constant Cert.ReferenceIdeal.S_ .f32 0x00000000#32) i (fun a => a.elim0) (fun a => a.elim0)

/-- A layer's body value on a row tile, entry by entry, is the layer function of the whole arrays at the entry's place:
    the tile's matrix product is the array's restricted to the tile's rows (the same sum over the contraction index, the
    left factor read at the tile's row of the array, the right factor the whole weight), the bias row is the same row, and
    both clamp against zero. `e` places a tile index in the array: it keeps the column, and the array row depends only on
    the tile row. -/
theorem layer_tile (x0 x1 : Vec Ideal S5000x64 .f32) (x2 : Vec Ideal S64x64 .f32) (x3 : Vec Ideal S1x64 .f32)
    (h msg : (⟨Cert.ReferenceIdeal.S100000x64, .f32⟩ : BufTy).Contents (Elt Ideal)) (W : (⟨Cert.ReferenceIdeal.S64x64, .f32⟩ : BufTy).Contents (Elt Ideal)) (b1 : (⟨Cert.ReferenceIdeal.S1x64, .f32⟩ : BufTy).Contents (Elt Ideal))
    (e : S5000x64.Idx → Cert.ReferenceIdeal.S100000x64.Idx)
    (he0 : ∀ y y' : S5000x64.Idx, (y 0).val = (y' 0).val → ((e y) 0).val = ((e y') 0).val)
    (he1 : ∀ y : S5000x64.Idx, ((e y) 1).val = (y 1).val)
    (hx0 : ∀ y, x0 y = h (e y)) (hx1 : ∀ y, x1 y = msg (e y)) (hx2 : ∀ y : S64x64.Idx, x2 y = W y) (hx3 : ∀ y : S1x64.Idx, x3 y = b1 y)
    (j : S5000x64.Idx) :
    k1_pay1 x0 x1 x2 x3 j = Cert.Gnn.layer (F := Ideal) h msg W b1 (e j) := by
  unfold k1_pay1 Cert.Gnn.layer Cert.Gnn.relu
  refine congrArg₂ max (congrArg₂ (· + ·) ?sum ?bias) ?zero
  case zero => exact (zero_array (e j)).symm
  case bias =>
    refine (bias_tile x3 j).trans ((hx3 _).trans ((bias_array b1 (e j)).trans ?_).symm)
    exact congrArg b1 (funext fun a => Fin.ext (by
      match a with
      | ⟨0, _⟩ => rfl
      | ⟨1, _⟩ => exact he1 j))
  case sum =>
    simp only [matmul, Host.dotGeneral]
    refine (Ideal.matmul_constant_zero_apply dT none _ _ j).trans ?_
    refine Eq.trans ?_ (Ideal.dotGeneral_apply dA none _ (addf h msg) W (e j)).symm
    refine ((Equiv.sum_comp (ValueIdx.contrEquiv1 dT 64 rfl rfl).symm _).symm.trans ?_).trans (Equiv.sum_comp (ValueIdx.contrEquiv1 dA 64 rfl rfl).symm _)
    refine Finset.sum_congr rfl fun k _ => ?_
    have hT := ValueIdx.contrEquiv1_symm_val dT 64 rfl rfl k
    have hA := ValueIdx.contrEquiv1_symm_val dA 64 rfl rfl k
    have el : e (dT.lhsIdx j ((ValueIdx.contrEquiv1 dT 64 rfl rfl).symm k)) = dA.lhsIdx (e j) ((ValueIdx.contrEquiv1 dA 64 rfl rfl).symm k) :=
      funext fun a => Fin.ext (by
        match a with
        | ⟨0, _⟩ => exact (he0 _ j (dT_lhs0 j _)).trans (dA_lhs0 (e j) _).symm
        | ⟨1, _⟩ => exact (he1 _).trans ((dT_lhs1 j _).trans (hT.trans (hA.symm.trans (dA_lhs1 (e j) _).symm))))
    have er : dT.rhsIdx j ((ValueIdx.contrEquiv1 dT 64 rfl rfl).symm k) = dA.rhsIdx (e j) ((ValueIdx.contrEquiv1 dA 64 rfl rfl).symm k) :=
      funext fun a => Fin.ext (by
        match a with
        | ⟨0, _⟩ => exact (dT_rhs0 j _).trans (hT.trans (hA.symm.trans (dA_rhs0 (e j) _).symm))
        | ⟨1, _⟩ => exact (dT_rhs1 j _).trans ((he1 j).symm.trans (dA_rhs1 (e j) _).symm))
    refine congrArg₂ (· * ·) ?_ ?_
    · show shapeCast S5000x64 x0 shapeCasts_S5000x64_S5000x64 _ + shapeCast S5000x64 x1 shapeCasts_S5000x64_S5000x64 _ = h _ + msg _
      rw [shapeCast_self, shapeCast_self, hx0, hx1, el]
    · show x2 _ = W _
      rw [hx2, er]

/-- The projection's body value on a row tile is the projection of the whole arrays at the entry's place: as for a layer,
    with one left factor and the contraction over 128. -/
theorem proj_tile (x0 : Vec Ideal S5000x128 .f32) (x2 : Vec Ideal S128x64 .f32) (x3 : Vec Ideal S1x64 .f32)
    (x : (⟨Cert.ReferenceIdeal.S100000x128, .f32⟩ : BufTy).Contents (Elt Ideal)) (W : (⟨Cert.ReferenceIdeal.S128x64, .f32⟩ : BufTy).Contents (Elt Ideal)) (b1 : (⟨Cert.ReferenceIdeal.S1x64, .f32⟩ : BufTy).Contents (Elt Ideal))
    (e : S5000x64.Idx → Cert.ReferenceIdeal.S100000x64.Idx) (e' : S5000x128.Idx → Cert.ReferenceIdeal.S100000x128.Idx)
    (he1 : ∀ y : S5000x64.Idx, ((e y) 1).val = (y 1).val)
    (he'0 : ∀ (y' : S5000x128.Idx) (y : S5000x64.Idx), (y' 0).val = (y 0).val → ((e' y') 0).val = ((e y) 0).val)
    (he'1 : ∀ y' : S5000x128.Idx, ((e' y') 1).val = (y' 1).val)
    (hx0 : ∀ y, x0 y = x (e' y)) (hx2 : ∀ y : S128x64.Idx, x2 y = W y) (hx3 : ∀ y : S1x64.Idx, x3 y = b1 y)
    (j : S5000x64.Idx) :
    k0_pay1 x0 x2 x3 j = Cert.Gnn.proj (F := Ideal) x W b1 (e j) := by
  unfold k0_pay1 Cert.Gnn.proj Cert.Gnn.relu
  refine congrArg₂ max (congrArg₂ (· + ·) ?sum ?bias) ?zero
  case zero => exact (zero_array (e j)).symm
  case bias =>
    refine (bias_tile x3 j).trans ((hx3 _).trans ((bias_array b1 (e j)).trans ?_).symm)
    exact congrArg b1 (funext fun a => Fin.ext (by
      match a with
      | ⟨0, _⟩ => rfl
      | ⟨1, _⟩ => exact he1 j))
  case sum =>
    simp only [matmul, Host.dotGeneral]
    refine (Ideal.matmul_constant_zero_apply dT0 none _ _ j).trans ?_
    refine Eq.trans ?_ (Ideal.dotGeneral_apply dA0 none _ x W (e j)).symm
    refine ((Equiv.sum_comp (ValueIdx.contrEquiv1 dT0 128 rfl rfl).symm _).symm.trans ?_).trans (Equiv.sum_comp (ValueIdx.contrEquiv1 dA0 128 rfl rfl).symm _)
    refine Finset.sum_congr rfl fun k _ => ?_
    have hT := ValueIdx.contrEquiv1_symm_val dT0 128 rfl rfl k
    have hA := ValueIdx.contrEquiv1_symm_val dA0 128 rfl rfl k
    have el : e' (dT0.lhsIdx j ((ValueIdx.contrEquiv1 dT0 128 rfl rfl).symm k)) = dA0.lhsIdx (e j) ((ValueIdx.contrEquiv1 dA0 128 rfl rfl).symm k) :=
      funext fun a => Fin.ext (by
        match a with
        | ⟨0, _⟩ => exact (he'0 _ j (dT0_lhs0 j _)).trans (dA0_lhs0 (e j) _).symm
        | ⟨1, _⟩ => exact (he'1 _).trans ((dT0_lhs1 j _).trans (hT.trans (hA.symm.trans (dA0_lhs1 (e j) _).symm))))
    have er : dT0.rhsIdx j ((ValueIdx.contrEquiv1 dT0 128 rfl rfl).symm k) = dA0.rhsIdx (e j) ((ValueIdx.contrEquiv1 dA0 128 rfl rfl).symm k) :=
      funext fun a => Fin.ext (by
        match a with
        | ⟨0, _⟩ => exact (dT0_rhs0 j _).trans (hT.trans (hA.symm.trans (dA0_rhs0 (e j) _).symm))
        | ⟨1, _⟩ => exact (dT0_rhs1 j _).trans ((he1 j).symm.trans (dA0_rhs1 (e j) _).symm))
    refine congrArg₂ (· * ·) ?_ ?_
    · show x0 _ = x _
      rw [hx0, el]
    · show x2 _ = W _
      rw [hx2, er]

/-- The second and third layers' bodies are the first's. -/
theorem k2_pay1_eq : @k2_pay1 Ideal _ = @k1_pay1 Ideal _ := rfl
theorem k3_pay1_eq : @k3_pay1 Ideal _ = @k1_pay1 Ideal _ := rfl

end Cert.KernelIdeal.Pay

end
-- ==== Proof.KV.Final0.lean ====
/-
  What pallas_call 0 leaves in its output array, at the exact instance: the input projection of the arrays it was
  entered with, as one whole-array function.
  The grid is 20 points; point `t` reads rows `5000·t … 5000·t + 4999` of the row-tiled operands (the weight and the bias
  row whole) and writes back the same rows of the output. What it writes is the body's value of those blocks, which entry by
  entry is the whole-array function at the entry's place in the array; the 20 blocks cover every row (row `r` lies in the
  block of point `r / 5000`), so after the last write-back the array is the function everywhere.
-/
import proofs.«103303_j13219909337227_1_alg».proof.Proof.KI.Tile0
import proofs.«103303_j13219909337227_1_alg».proof.Proof.KV.Pay
import Idealize.ShloMosaic.Lib.Pipeline.Value

set_option maxRecDepth 16384

noncomputable section

namespace Cert.KernelIdeal.Tile

open Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: a row-tiled operand's block row is the output's, which is the point's number; every
    block column is 0, and so is the block row of an operand taken whole. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) = t.val :=
  (by decide +kernel : ∀ t : Fin grid0.N, _)

/-- Point `t` writes back block `t` of the whole-array function of the entry contents. -/
theorem flushed0_eq (c : Dev nD) (t : Fin cfg0.N) :
    (dat0 V c).flushed 3 t = ((cfg0.win 3).blk t).view.read (Elt Ideal) (Cert.Gnn.proj (F := Ideal) (V c main_arg0) (V c main_arg3) (V c main_v4)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x64) hz0, View.ld_unit_zero (S := S1x64) hz0]
  obtain ⟨f0, f1, f2, f3, f4, f5, f6, f7⟩ := idx_facts0 t
  funext j
  exact Cert.KernelIdeal.Pay.proj_tile (iblk0 V c 0 t) (iblk0 V c 1 t) (iblk0 V c 2 t) (V c main_arg0) (V c main_arg3) (V c main_v4)
    (((cfg0.win 3).blk t).view.emb) (((cfg0.win 0).blk t).view.emb)
    (fun y => by show win0_3.index t (1 : Fin 2) * 64 + 1 * (y 1).val = (y 1).val; omega)
    (fun y' y hy => by show win0_0.index t (0 : Fin 2) * 5000 + 1 * (y' 0).val = win0_3.index t (0 : Fin 2) * 5000 + 1 * (y 0).val; omega)
    (fun y' => by show win0_0.index t (1 : Fin 2) * 128 + 1 * (y' 1).val = (y' 1).val; omega)
    (fun y => rfl)
    (fun y => by
      show V c main_arg3 (((cfg0.win 1).blk t).view.emb y) = V c main_arg3 y
      refine congrArg _ (funext fun a => Fin.ext ?_)
      match a with
      | ⟨0, _⟩ => show win0_1.index t (0 : Fin 2) * 128 + 1 * (y 0).val = (y 0).val; omega
      | ⟨1, _⟩ => show win0_1.index t (1 : Fin 2) * 64 + 1 * (y 1).val = (y 1).val; omega)
    (fun y => by
      show V c main_v4 (((cfg0.win 2).blk t).view.emb y) = V c main_v4 y
      refine congrArg _ (funext fun a => Fin.ext ?_)
      match a with
      | ⟨0, _⟩ => show win0_2.index t (0 : Fin 2) * 1 + 1 * (y 0).val = (y 0).val; omega
      | ⟨1, _⟩ => show win0_2.index t (1 : Fin 2) * 64 + 1 * (y 1).val = (y 1).val; omega)
    j

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every index of the output array lies in some point's block: row `r` in that of point `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by omega⟩, flush0_3 _, ?_⟩
  obtain ⟨f0, f1, f2, f3, f4, f5, f6, f7⟩ := idx_facts0 ⟨(i 0).val / 5000, by omega⟩
  rw [mem_blk0]
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [f7]
    show (i 0).val / 5000 * 5000 ≤ (i 0).val ∧ (i 0).val < (i 0).val / 5000 * 5000 + 5000
    omega
  | ⟨1, _⟩ =>
    show win0_3.index ⟨(i 0).val / 5000, _⟩ (1 : Fin 2) * 64 ≤ (i 1).val ∧ (i 1).val < win0_3.index ⟨(i 0).val / 5000, _⟩ (1 : Fin 2) * 64 + 64
    rw [f6]
    omega

/-- After the call its output array is the whole-array function of the entry contents. -/
theorem final0 (c : Dev nD) : (dat0 V c).arrAt 3 cfg0.N = Cert.Gnn.proj (F := Ideal) (V c main_arg0) (V c main_arg3) (V c main_v4) :=
  (dat0 V c).arrAt_eq_of_cover 3 _ (fun t _ => flushed0_eq V c t) (cover0)

end Cert.KernelIdeal.Tile

end
-- ==== Proof.KV.Final1.lean ====
/-
  What pallas_call 1 leaves in its output array, at the exact instance: the layer function of the arrays it was
  entered with, as one whole-array function.
  The grid is 20 points; point `t` reads rows `5000·t … 5000·t + 4999` of the row-tiled operands (the weight and the bias
  row whole) and writes back the same rows of the output. What it writes is the body's value of those blocks, which entry by
  entry is the whole-array function at the entry's place in the array; the 20 blocks cover every row (row `r` lies in the
  block of point `r / 5000`), so after the last write-back the array is the function everywhere.
-/
import proofs.«103303_j13219909337227_1_alg».proof.Proof.KI.Tile1
import proofs.«103303_j13219909337227_1_alg».proof.Proof.KV.Pay
import Idealize.ShloMosaic.Lib.Pipeline.Value

set_option maxRecDepth 16384

noncomputable section

namespace Cert.KernelIdeal.Tile

open Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: a row-tiled operand's block row is the output's, which is the point's number; every
    block column is 0, and so is the block row of an operand taken whole. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) = t.val :=
  (by decide +kernel : ∀ t : Fin grid1.N, _)

/-- Point `t` writes back block `t` of the whole-array function of the entry contents. -/
theorem flushed1_eq (c : Dev nD) (t : Fin cfg1.N) :
    (dat1 V c).flushed 4 t = ((cfg1.win 4).blk t).view.read (Elt Ideal) (Cert.Gnn.layer (F := Ideal) (V c main_v5) (V c main_v17) (V c main_arg5) (V c main_v18)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S64x64) hz1, View.ld_unit_zero (S := S1x64) hz1]
  obtain ⟨f0, f1, f2, f3, f4, f5, f6, f7, f8, f9⟩ := idx_facts1 t
  funext j
  exact Cert.KernelIdeal.Pay.layer_tile (iblk1 V c 0 t) (iblk1 V c 1 t) (iblk1 V c 2 t) (iblk1 V c 3 t) (V c main_v5) (V c main_v17) (V c main_arg5) (V c main_v18)
    (((cfg1.win 4).blk t).view.emb)
    (fun y y' hy => by show win1_4.index t (0 : Fin 2) * 5000 + 1 * (y 0).val = win1_4.index t (0 : Fin 2) * 5000 + 1 * (y' 0).val; omega)
    (fun y => by show win1_4.index t (1 : Fin 2) * 64 + 1 * (y 1).val = (y 1).val; omega)
    (fun y => by
      show V c main_v5 (((cfg1.win 0).blk t).view.emb y) = V c main_v5 (((cfg1.win 4).blk t).view.emb y)
      refine congrArg _ (funext fun a => Fin.ext ?_)
      match a with
      | ⟨0, _⟩ => show win1_0.index t (0 : Fin 2) * 5000 + 1 * (y 0).val = win1_4.index t (0 : Fin 2) * 5000 + 1 * (y 0).val; omega
      | ⟨1, _⟩ => show win1_0.index t (1 : Fin 2) * 64 + 1 * (y 1).val = win1_4.index t (1 : Fin 2) * 64 + 1 * (y 1).val; omega)
    (fun y => by
      show V c main_v17 (((cfg1.win 1).blk t).view.emb y) = V c main_v17 (((cfg1.win 4).blk t).view.emb y)
      refine congrArg _ (funext fun a => Fin.ext ?_)
      match a with
      | ⟨0, _⟩ => show win1_1.index t (0 : Fin 2) * 5000 + 1 * (y 0).val = win1_4.index t (0 : Fin 2) * 5000 + 1 * (y 0).val; omega
      | ⟨1, _⟩ => show win1_1.index t (1 : Fin 2) * 64 + 1 * (y 1).val = win1_4.index t (1 : Fin 2) * 64 + 1 * (y 1).val; omega)
    (fun y => by
      show V c main_arg5 (((cfg1.win 2).blk t).view.emb y) = V c main_arg5 y
      refine congrArg _ (funext fun a => Fin.ext ?_)
      match a with
      | ⟨0, _⟩ => show win1_2.index t (0 : Fin 2) * 64 + 1 * (y 0).val = (y 0).val; omega
      | ⟨1, _⟩ => show win1_2.index t (1 : Fin 2) * 64 + 1 * (y 1).val = (y 1).val; omega)
    (fun y => by
      show V c main_v18 (((cfg1.win 3).blk t).view.emb y) = V c main_v18 y
      refine congrArg _ (funext fun a => Fin.ext ?_)
      match a with
      | ⟨0, _⟩ => show win1_3.index t (0 : Fin 2) * 1 + 1 * (y 0).val = (y 0).val; omega
      | ⟨1, _⟩ => show win1_3.index t (1 : Fin 2) * 64 + 1 * (y 1).val = (y 1).val; omega)
    j

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v19).slice (win1_4.rect t)).set ↔ _
  rw [View.set_slice_whole, Rect.mem_set_unit]
  exact Iff.rfl

/-- Every index of the output array lies in some point's block: row `r` in that of point `r / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by omega⟩, flush1_4 _, ?_⟩
  obtain ⟨f0, f1, f2, f3, f4, f5, f6, f7, f8, f9⟩ := idx_facts1 ⟨(i 0).val / 5000, by omega⟩
  rw [mem_blk1]
  intro a
  match a with
  | ⟨0, _⟩ =>
    show win1_4.index ⟨(i 0).val / 5000, _⟩ (0 : Fin 2) * 5000 ≤ (i 0).val ∧ (i 0).val < win1_4.index ⟨(i 0).val / 5000, _⟩ (0 : Fin 2) * 5000 + 5000
    rw [f9]
    show (i 0).val / 5000 * 5000 ≤ (i 0).val ∧ (i 0).val < (i 0).val / 5000 * 5000 + 5000
    omega
  | ⟨1, _⟩ =>
    show win1_4.index ⟨(i 0).val / 5000, _⟩ (1 : Fin 2) * 64 ≤ (i 1).val ∧ (i 1).val < win1_4.index ⟨(i 0).val / 5000, _⟩ (1 : Fin 2) * 64 + 64
    rw [f8]
    omega

/-- After the call its output array is the whole-array function of the entry contents. -/
theorem final1 (c : Dev nD) : (dat1 V c).arrAt 4 cfg1.N = Cert.Gnn.layer (F := Ideal) (V c main_v5) (V c main_v17) (V c main_arg5) (V c main_v18) :=
  (dat1 V c).arrAt_eq_of_cover 4 _ (fun t _ => flushed1_eq V c t) (cover1)

end Cert.KernelIdeal.Tile

end
-- ==== Proof.KV.Final2.lean ====
/-
  What pallas_call 2 leaves in its output array, at the exact instance: the layer function of the arrays it was
  entered with, as one whole-array function.
  The grid is 20 points; point `t` reads rows `5000·t … 5000·t + 4999` of the row-tiled operands (the weight and the bias
  row whole) and writes back the same rows of the output. What it writes is the body's value of those blocks, which entry by
  entry is the whole-array function at the entry's place in the array; the 20 blocks cover every row (row `r` lies in the
  block of point `r / 5000`), so after the last write-back the array is the function everywhere.
-/
import proofs.«103303_j13219909337227_1_alg».proof.Proof.KI.Tile2
import proofs.«103303_j13219909337227_1_alg».proof.Proof.KV.Pay
import Idealize.ShloMosaic.Lib.Pipeline.Value

set_option maxRecDepth 16384

noncomputable section

namespace Cert.KernelIdeal.Tile

open Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: a row-tiled operand's block row is the output's, which is the point's number; every
    block column is 0, and so is the block row of an operand taken whole. -/
theorem idx_facts2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) = t.val :=
  (by decide +kernel : ∀ t : Fin grid2.N, _)

/-- Point `t` writes back block `t` of the whole-array function of the entry contents. -/
theorem flushed2_eq (c : Dev nD) (t : Fin cfg2.N) :
    (dat2 V c).flushed 4 t = ((cfg2.win 4).blk t).view.read (Elt Ideal) (Cert.Gnn.layer (F := Ideal) (V c main_v19) (V c main_v31) (V c main_arg7) (V c main_v32)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S64x64) hz2, View.ld_unit_zero (S := S1x64) hz2]
  rw [Cert.KernelIdeal.Pay.k2_pay1_eq]
  obtain ⟨f0, f1, f2, f3, f4, f5, f6, f7, f8, f9⟩ := idx_facts2 t
  funext j
  exact Cert.KernelIdeal.Pay.layer_tile (iblk2 V c 0 t) (iblk2 V c 1 t) (iblk2 V c 2 t) (iblk2 V c 3 t) (V c main_v19) (V c main_v31) (V c main_arg7) (V c main_v32)
    (((cfg2.win 4).blk t).view.emb)
    (fun y y' hy => by show win2_4.index t (0 : Fin 2) * 5000 + 1 * (y 0).val = win2_4.index t (0 : Fin 2) * 5000 + 1 * (y' 0).val; omega)
    (fun y => by show win2_4.index t (1 : Fin 2) * 64 + 1 * (y 1).val = (y 1).val; omega)
    (fun y => by
      show V c main_v19 (((cfg2.win 0).blk t).view.emb y) = V c main_v19 (((cfg2.win 4).blk t).view.emb y)
      refine congrArg _ (funext fun a => Fin.ext ?_)
      match a with
      | ⟨0, _⟩ => show win2_0.index t (0 : Fin 2) * 5000 + 1 * (y 0).val = win2_4.index t (0 : Fin 2) * 5000 + 1 * (y 0).val; omega
      | ⟨1, _⟩ => show win2_0.index t (1 : Fin 2) * 64 + 1 * (y 1).val = win2_4.index t (1 : Fin 2) * 64 + 1 * (y 1).val; omega)
    (fun y => by
      show V c main_v31 (((cfg2.win 1).blk t).view.emb y) = V c main_v31 (((cfg2.win 4).blk t).view.emb y)
      refine congrArg _ (funext fun a => Fin.ext ?_)
      match a with
      | ⟨0, _⟩ => show win2_1.index t (0 : Fin 2) * 5000 + 1 * (y 0).val = win2_4.index t (0 : Fin 2) * 5000 + 1 * (y 0).val; omega
      | ⟨1, _⟩ => show win2_1.index t (1 : Fin 2) * 64 + 1 * (y 1).val = win2_4.index t (1 : Fin 2) * 64 + 1 * (y 1).val; omega)
    (fun y => by
      show V c main_arg7 (((cfg2.win 2).blk t).view.emb y) = V c main_arg7 y
      refine congrArg _ (funext fun a => Fin.ext ?_)
      match a with
      | ⟨0, _⟩ => show win2_2.index t (0 : Fin 2) * 64 + 1 * (y 0).val = (y 0).val; omega
      | ⟨1, _⟩ => show win2_2.index t (1 : Fin 2) * 64 + 1 * (y 1).val = (y 1).val; omega)
    (fun y => by
      show V c main_v32 (((cfg2.win 3).blk t).view.emb y) = V c main_v32 y
      refine congrArg _ (funext fun a => Fin.ext ?_)
      match a with
      | ⟨0, _⟩ => show win2_3.index t (0 : Fin 2) * 1 + 1 * (y 0).val = (y 0).val; omega
      | ⟨1, _⟩ => show win2_3.index t (1 : Fin 2) * 64 + 1 * (y 1).val = (y 1).val; omega)
    j

/-- An index of the output array is in point `t`'s block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v33).slice (win2_4.rect t)).set ↔ _
  rw [View.set_slice_whole, Rect.mem_set_unit]
  exact Iff.rfl

/-- Every index of the output array lies in some point's block: row `r` in that of point `r / 5000`. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  refine ⟨⟨(i 0).val / 5000, by omega⟩, flush2_4 _, ?_⟩
  obtain ⟨f0, f1, f2, f3, f4, f5, f6, f7, f8, f9⟩ := idx_facts2 ⟨(i 0).val / 5000, by omega⟩
  rw [mem_blk2]
  intro a
  match a with
  | ⟨0, _⟩ =>
    show win2_4.index ⟨(i 0).val / 5000, _⟩ (0 : Fin 2) * 5000 ≤ (i 0).val ∧ (i 0).val < win2_4.index ⟨(i 0).val / 5000, _⟩ (0 : Fin 2) * 5000 + 5000
    rw [f9]
    show (i 0).val / 5000 * 5000 ≤ (i 0).val ∧ (i 0).val < (i 0).val / 5000 * 5000 + 5000
    omega
  | ⟨1, _⟩ =>
    show win2_4.index ⟨(i 0).val / 5000, _⟩ (1 : Fin 2) * 64 ≤ (i 1).val ∧ (i 1).val < win2_4.index ⟨(i 0).val / 5000, _⟩ (1 : Fin 2) * 64 + 64
    rw [f8]
    omega

/-- After the call its output array is the whole-array function of the entry contents. -/
theorem final2 (c : Dev nD) : (dat2 V c).arrAt 4 cfg2.N = Cert.Gnn.layer (F := Ideal) (V c main_v19) (V c main_v31) (V c main_arg7) (V c main_v32) :=
  (dat2 V c).arrAt_eq_of_cover 4 _ (fun t _ => flushed2_eq V c t) (cover2)

end Cert.KernelIdeal.Tile

end
-- ==== Proof.KV.Final3.lean ====
/-
  What pallas_call 3 leaves in its output array, at the exact instance: the layer function of the arrays it was
  entered with, as one whole-array function.
  The grid is 20 points; point `t` reads rows `5000·t … 5000·t + 4999` of the row-tiled operands (the weight and the bias
  row whole) and writes back the same rows of the output. What it writes is the body's value of those blocks, which entry by
  entry is the whole-array function at the entry's place in the array; the 20 blocks cover every row (row `r` lies in the
  block of point `r / 5000`), so after the last write-back the array is the function everywhere.
-/
import proofs.«103303_j13219909337227_1_alg».proof.Proof.KI.Tile3
import proofs.«103303_j13219909337227_1_alg».proof.Proof.KV.Pay
import Idealize.ShloMosaic.Lib.Pipeline.Value

set_option maxRecDepth 16384

noncomputable section

namespace Cert.KernelIdeal.Tile

open Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: a row-tiled operand's block row is the output's, which is the point's number; every
    block column is 0, and so is the block row of an operand taken whole. -/
theorem idx_facts3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) = t.val :=
  (by decide +kernel : ∀ t : Fin grid3.N, _)

/-- Point `t` writes back block `t` of the whole-array function of the entry contents. -/
theorem flushed3_eq (c : Dev nD) (t : Fin cfg3.N) :
    (dat3 V c).flushed 4 t = ((cfg3.win 4).blk t).view.read (Elt Ideal) (Cert.Gnn.layer (F := Ideal) (V c main_v33) (V c main_v45) (V c main_arg9) (V c main_v46)) := by
  show (cfg3.win 4).cut (grid3.coords t) ((dat3 V c).after 4 t) = _
  rw [after3_4]
  unfold out3_4
  rw [View.canon_unit_zero hz3]
  simp only [View.ld_unit_zero (S := S5000x64) hz3, View.ld_unit_zero (S := S64x64) hz3, View.ld_unit_zero (S := S1x64) hz3]
  rw [Cert.KernelIdeal.Pay.k3_pay1_eq]
  obtain ⟨f0, f1, f2, f3, f4, f5, f6, f7, f8, f9⟩ := idx_facts3 t
  funext j
  exact Cert.KernelIdeal.Pay.layer_tile (iblk3 V c 0 t) (iblk3 V c 1 t) (iblk3 V c 2 t) (iblk3 V c 3 t) (V c main_v33) (V c main_v45) (V c main_arg9) (V c main_v46)
    (((cfg3.win 4).blk t).view.emb)
    (fun y y' hy => by show win3_4.index t (0 : Fin 2) * 5000 + 1 * (y 0).val = win3_4.index t (0 : Fin 2) * 5000 + 1 * (y' 0).val; omega)
    (fun y => by show win3_4.index t (1 : Fin 2) * 64 + 1 * (y 1).val = (y 1).val; omega)
    (fun y => by
      show V c main_v33 (((cfg3.win 0).blk t).view.emb y) = V c main_v33 (((cfg3.win 4).blk t).view.emb y)
      refine congrArg _ (funext fun a => Fin.ext ?_)
      match a with
      | ⟨0, _⟩ => show win3_0.index t (0 : Fin 2) * 5000 + 1 * (y 0).val = win3_4.index t (0 : Fin 2) * 5000 + 1 * (y 0).val; omega
      | ⟨1, _⟩ => show win3_0.index t (1 : Fin 2) * 64 + 1 * (y 1).val = win3_4.index t (1 : Fin 2) * 64 + 1 * (y 1).val; omega)
    (fun y => by
      show V c main_v45 (((cfg3.win 1).blk t).view.emb y) = V c main_v45 (((cfg3.win 4).blk t).view.emb y)
      refine congrArg _ (funext fun a => Fin.ext ?_)
      match a with
      | ⟨0, _⟩ => show win3_1.index t (0 : Fin 2) * 5000 + 1 * (y 0).val = win3_4.index t (0 : Fin 2) * 5000 + 1 * (y 0).val; omega
      | ⟨1, _⟩ => show win3_1.index t (1 : Fin 2) * 64 + 1 * (y 1).val = win3_4.index t (1 : Fin 2) * 64 + 1 * (y 1).val; omega)
    (fun y => by
      show V c main_arg9 (((cfg3.win 2).blk t).view.emb y) = V c main_arg9 y
      refine congrArg _ (funext fun a => Fin.ext ?_)
      match a with
      | ⟨0, _⟩ => show win3_2.index t (0 : Fin 2) * 64 + 1 * (y 0).val = (y 0).val; omega
      | ⟨1, _⟩ => show win3_2.index t (1 : Fin 2) * 64 + 1 * (y 1).val = (y 1).val; omega)
    (fun y => by
      show V c main_v46 (((cfg3.win 3).blk t).view.emb y) = V c main_v46 y
      refine congrArg _ (funext fun a => Fin.ext ?_)
      match a with
      | ⟨0, _⟩ => show win3_3.index t (0 : Fin 2) * 1 + 1 * (y 0).val = (y 0).val; omega
      | ⟨1, _⟩ => show win3_3.index t (1 : Fin 2) * 64 + 1 * (y 1).val = (y 1).val; omega)
    j

/-- An index of the output array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v47).slice (win3_4.rect t)).set ↔ _
  rw [View.set_slice_whole, Rect.mem_set_unit]
  exact Iff.rfl

/-- Every index of the output array lies in some point's block: row `r` in that of point `r / 5000`. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  refine ⟨⟨(i 0).val / 5000, by omega⟩, flush3_4 _, ?_⟩
  obtain ⟨f0, f1, f2, f3, f4, f5, f6, f7, f8, f9⟩ := idx_facts3 ⟨(i 0).val / 5000, by omega⟩
  rw [mem_blk3]
  intro a
  match a with
  | ⟨0, _⟩ =>
    show win3_4.index ⟨(i 0).val / 5000, _⟩ (0 : Fin 2) * 5000 ≤ (i 0).val ∧ (i 0).val < win3_4.index ⟨(i 0).val / 5000, _⟩ (0 : Fin 2) * 5000 + 5000
    rw [f9]
    show (i 0).val / 5000 * 5000 ≤ (i 0).val ∧ (i 0).val < (i 0).val / 5000 * 5000 + 5000
    omega
  | ⟨1, _⟩ =>
    show win3_4.index ⟨(i 0).val / 5000, _⟩ (1 : Fin 2) * 64 ≤ (i 1).val ∧ (i 1).val < win3_4.index ⟨(i 0).val / 5000, _⟩ (1 : Fin 2) * 64 + 64
    rw [f8]
    omega

/-- After the call its output array is the whole-array function of the entry contents. -/
theorem final3 (c : Dev nD) : (dat3 V c).arrAt 4 cfg3.N = Cert.Gnn.layer (F := Ideal) (V c main_v33) (V c main_v45) (V c main_arg9) (V c main_v46) :=
  (dat3 V c).arrAt_eq_of_cover 4 _ (fun t _ => flushed3_eq V c t) (cover3)

end Cert.KernelIdeal.Tile

end
-- ==== Proof.KV.Result.lean ====
/-
  The kernel program's result array is the network's stacked states of its arguments, at the exact instance.
  Walking the boundaries of the run: the first host stretch slices the edge index into sources and targets and reshapes the
  first bias to a row; the first call leaves the input projection of the arguments in its output array; each later stretch
  computes the aggregated messages of the state the previous call left (the same host operations as the reference's, read
  as one function of that state) and reshapes the next bias; each later call leaves the layer function of that state, its
  messages, the weight and the bias row. A buffer keeps its contents across every stretch that does not write it and every
  call whose output it is not, so each state is still in place when the last stretch stacks the four.
-/
import proofs.«103303_j13219909337227_1_alg».proof.Proof.KI.Run
import proofs.«103303_j13219909337227_1_alg».proof.Proof.KV.Final0
import proofs.«103303_j13219909337227_1_alg».proof.Proof.KV.Final1
import proofs.«103303_j13219909337227_1_alg».proof.Proof.KV.Final2
import proofs.«103303_j13219909337227_1_alg».proof.Proof.KV.Final3
import Idealize.ShloMosaic.Lib.StableHlo.Run

set_option maxRecDepth 16384

noncomputable section

namespace Cert.KernelIdeal.Tile

open Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

/-- A bias vector reshaped to one row is the vector broadcast along a new leading axis: both read, at `(0, q)`, entry `q`. -/
theorem reshape_bias (b : (⟨S64, .f32⟩ : BufTy).Contents (Elt Ideal)) :
    shapeCast S1x64 b shapeCasts_S64_S1x64 = Cert.Gnn.biasRow (F := Ideal) b := by
  funext i
  unfold Cert.Gnn.biasRow
  have hi0 : (i 0).val < 1 := (i 0).isLt
  refine (shapeCast_apply b shapeCasts_S64_S1x64 i (fun a => match a with | ⟨0, _⟩ => ⟨(i 1).val, (i 1).isLt⟩) ?_).trans
    (broadcastInDim_apply _ Cert.ReferenceIdeal.Gen.bcast_S64_S1x64_1 b i (fun a => match a with | ⟨0, _⟩ => ⟨(i 1).val, (i 1).isLt⟩) ?_).symm
  · rw [Shape.rowMajor_val_one, Shape.rowMajor_val_two]
    show (i 1).val = (i 0).val * 64 + (i 1).val
    omega
  · intro a
    match a with
    | ⟨0, _⟩ => show (i 1).val = if (64 : Nat) = 1 then 0 else (i 1).val; rw [if_neg (by decide)]

/-! ## The first host stretch -/

theorem W1_v1 (c : Dev nD) : W1 m ρ c (Proc.devRef .tc main_v1) = Cert.Gnn.src (F := Ideal) (m ((c.tc : Thread nD τ).loc main_arg1)) := by
  show StableHlo.after hostOps0 (W0 m ρ c) (Proc.devRef .tc main_v1) = _
  after_results
  rfl
theorem W1_v3 (c : Dev nD) : W1 m ρ c (Proc.devRef .tc main_v3) = Cert.Gnn.tgt (F := Ideal) (m ((c.tc : Thread nD τ).loc main_arg1)) := by
  show StableHlo.after hostOps0 (W0 m ρ c) (Proc.devRef .tc main_v3) = _
  after_results
  rfl
theorem W1_v4 (c : Dev nD) : W1 m ρ c (Proc.devRef .tc main_v4) = Cert.Gnn.biasRow (F := Ideal) (m ((c.tc : Thread nD τ).loc main_arg4)) := by
  refine Eq.trans ?_ (reshape_bias (m ((c.tc : Thread nD τ).loc main_arg4)))
  show StableHlo.after hostOps0 (W0 m ρ c) (Proc.devRef .tc main_v4) = _
  after_results
  rfl

/-! ## The first call: the input projection -/

theorem state0_at (c : Dev nD) : W2 m ρ c (Proc.devRef .tc main_v5) = (Cert.Gnn.state0 (F := Ideal) (m ((c.tc : Thread nD τ).loc main_arg0)) (m ((c.tc : Thread nD τ).loc main_arg3)) (m ((c.tc : Thread nD τ).loc main_arg4))) := by
  refine (W2_arr m ρ c 3).trans ?_
  rw [final0 (En1 m ρ) c]
  have e0 : En1 m ρ c main_arg0 = (m ((c.tc : Thread nD τ).loc main_arg0)) := (W1_of m ρ c main_arg0 (by decide))
  have e3 : En1 m ρ c main_arg3 = (m ((c.tc : Thread nD τ).loc main_arg3)) := (W1_of m ρ c main_arg3 (by decide))
  have e4 : En1 m ρ c main_v4 = Cert.Gnn.biasRow (F := Ideal) (m ((c.tc : Thread nD τ).loc main_arg4)) := W1_v4 m ρ c
  rw [e0, e3, e4]
  rfl

/-! ## Host stretch 2 and call 1: one round of message passing -/

set_option maxHeartbeats 1600000 in
theorem W3_msg (c : Dev nD) : W3 m ρ c (Proc.devRef .tc main_v17)
    = Cert.Gnn.messages (F := Ideal) (W2 m ρ c (Proc.devRef .tc main_v5)) (W2 m ρ c (Proc.devRef .tc main_v1)) (W2 m ρ c (Proc.devRef .tc main_v3)) (W2 m ρ c (Proc.devRef .tc main_arg2)) := by
  show StableHlo.after hostOps1 (W2 m ρ c) (Proc.devRef .tc main_v17) = _
  after_results
  rfl
theorem W3_bias (c : Dev nD) : W3 m ρ c (Proc.devRef .tc main_v18) = shapeCast S1x64 (W2 m ρ c (Proc.devRef .tc main_arg6)) shapeCasts_S64_S1x64 := by
  show StableHlo.after hostOps1 (W2 m ρ c) (Proc.devRef .tc main_v18) = _
  after_results
  rfl

theorem state1_at (c : Dev nD) : W4 m ρ c (Proc.devRef .tc main_v19) = (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) := by
  refine (W4_arr m ρ c 4).trans ?_
  rw [final1 (En3 m ρ) c]
  have eh : En3 m ρ c main_v5 = (Cert.Gnn.state0 (F := Ideal) (m ((c.tc : Thread nD τ).loc main_arg0)) (m ((c.tc : Thread nD τ).loc main_arg3)) (m ((c.tc : Thread nD τ).loc main_arg4))) := (W3_of m ρ c main_v5 (by decide)).trans (state0_at m ρ c)
  have e1 : W2 m ρ c (Proc.devRef .tc main_v1) = Cert.Gnn.src (F := Ideal) (m ((c.tc : Thread nD τ).loc main_arg1)) := (keep0 m ρ c main_v1 (by decide)).trans (W1_v1 m ρ c)
  have e3 : W2 m ρ c (Proc.devRef .tc main_v3) = Cert.Gnn.tgt (F := Ideal) (m ((c.tc : Thread nD τ).loc main_arg1)) := (keep0 m ρ c main_v3 (by decide)).trans (W1_v3 m ρ c)
  have e2 : W2 m ρ c (Proc.devRef .tc main_arg2) = (m ((c.tc : Thread nD τ).loc main_arg2)) := ((keep0 m ρ c main_arg2 (by decide)).trans (W1_of m ρ c main_arg2 (by decide)))
  have em : En3 m ρ c main_v17 = Cert.Gnn.messages (F := Ideal) (Cert.Gnn.state0 (F := Ideal) (m ((c.tc : Thread nD τ).loc main_arg0)) (m ((c.tc : Thread nD τ).loc main_arg3)) (m ((c.tc : Thread nD τ).loc main_arg4))) (Cert.Gnn.src (F := Ideal) (m ((c.tc : Thread nD τ).loc main_arg1))) (Cert.Gnn.tgt (F := Ideal) (m ((c.tc : Thread nD τ).loc main_arg1))) (m ((c.tc : Thread nD τ).loc main_arg2)) := by
    refine (W3_msg m ρ c).trans ?_
    rw [state0_at m ρ c, e1, e3, e2]
  have eW : En3 m ρ c main_arg5 = (m ((c.tc : Thread nD τ).loc main_arg5)) := ((W3_of m ρ c main_arg5 (by decide)).trans ((keep0 m ρ c main_arg5 (by decide)).trans (W1_of m ρ c main_arg5 (by decide))))
  have eb : En3 m ρ c main_v18 = Cert.Gnn.biasRow (F := Ideal) (m ((c.tc : Thread nD τ).loc main_arg6)) := by
    refine (W3_bias m ρ c).trans ?_
    rw [show W2 m ρ c (Proc.devRef .tc main_arg6) = (m ((c.tc : Thread nD τ).loc main_arg6)) from ((keep0 m ρ c main_arg6 (by decide)).trans (W1_of m ρ c main_arg6 (by decide)))]
    exact reshape_bias _
  rw [eh, em, eW, eb]
  rfl

/-! ## Host stretch 3 and call 2: one round of message passing -/

set_option maxHeartbeats 1600000 in
theorem W5_msg (c : Dev nD) : W5 m ρ c (Proc.devRef .tc main_v31)
    = Cert.Gnn.messages (F := Ideal) (W4 m ρ c (Proc.devRef .tc main_v19)) (W4 m ρ c (Proc.devRef .tc main_v1)) (W4 m ρ c (Proc.devRef .tc main_v3)) (W4 m ρ c (Proc.devRef .tc main_arg2)) := by
  show StableHlo.after hostOps2 (W4 m ρ c) (Proc.devRef .tc main_v31) = _
  after_results
  rfl
theorem W5_bias (c : Dev nD) : W5 m ρ c (Proc.devRef .tc main_v32) = shapeCast S1x64 (W4 m ρ c (Proc.devRef .tc main_arg8)) shapeCasts_S64_S1x64 := by
  show StableHlo.after hostOps2 (W4 m ρ c) (Proc.devRef .tc main_v32) = _
  after_results
  rfl

theorem state2_at (c : Dev nD) : W6 m ρ c (Proc.devRef .tc main_v33) = (Cert.Gnn.step (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) := by
  refine (W6_arr m ρ c 4).trans ?_
  rw [final2 (En5 m ρ) c]
  have eh : En5 m ρ c main_v19 = (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) := (W5_of m ρ c main_v19 (by decide)).trans (state1_at m ρ c)
  have e1 : W4 m ρ c (Proc.devRef .tc main_v1) = Cert.Gnn.src (F := Ideal) (m ((c.tc : Thread nD τ).loc main_arg1)) := ((keep1 m ρ c main_v1 (by decide)).trans ((W3_of m ρ c main_v1 (by decide)).trans (keep0 m ρ c main_v1 (by decide)))).trans (W1_v1 m ρ c)
  have e3 : W4 m ρ c (Proc.devRef .tc main_v3) = Cert.Gnn.tgt (F := Ideal) (m ((c.tc : Thread nD τ).loc main_arg1)) := ((keep1 m ρ c main_v3 (by decide)).trans ((W3_of m ρ c main_v3 (by decide)).trans (keep0 m ρ c main_v3 (by decide)))).trans (W1_v3 m ρ c)
  have e2 : W4 m ρ c (Proc.devRef .tc main_arg2) = (m ((c.tc : Thread nD τ).loc main_arg2)) := ((keep1 m ρ c main_arg2 (by decide)).trans ((W3_of m ρ c main_arg2 (by decide)).trans ((keep0 m ρ c main_arg2 (by decide)).trans (W1_of m ρ c main_arg2 (by decide)))))
  have em : En5 m ρ c main_v31 = Cert.Gnn.messages (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (Cert.Gnn.src (F := Ideal) (m ((c.tc : Thread nD τ).loc main_arg1))) (Cert.Gnn.tgt (F := Ideal) (m ((c.tc : Thread nD τ).loc main_arg1))) (m ((c.tc : Thread nD τ).loc main_arg2)) := by
    refine (W5_msg m ρ c).trans ?_
    rw [state1_at m ρ c, e1, e3, e2]
  have eW : En5 m ρ c main_arg7 = (m ((c.tc : Thread nD τ).loc main_arg7)) := ((W5_of m ρ c main_arg7 (by decide)).trans ((keep1 m ρ c main_arg7 (by decide)).trans ((W3_of m ρ c main_arg7 (by decide)).trans ((keep0 m ρ c main_arg7 (by decide)).trans (W1_of m ρ c main_arg7 (by decide))))))
  have eb : En5 m ρ c main_v32 = Cert.Gnn.biasRow (F := Ideal) (m ((c.tc : Thread nD τ).loc main_arg8)) := by
    refine (W5_bias m ρ c).trans ?_
    rw [show W4 m ρ c (Proc.devRef .tc main_arg8) = (m ((c.tc : Thread nD τ).loc main_arg8)) from ((keep1 m ρ c main_arg8 (by decide)).trans ((W3_of m ρ c main_arg8 (by decide)).trans ((keep0 m ρ c main_arg8 (by decide)).trans (W1_of m ρ c main_arg8 (by decide)))))]
    exact reshape_bias _
  rw [eh, em, eW, eb]
  rfl

/-! ## Host stretch 4 and call 3: one round of message passing -/

set_option maxHeartbeats 1600000 in
theorem W7_msg (c : Dev nD) : W7 m ρ c (Proc.devRef .tc main_v45)
    = Cert.Gnn.messages (F := Ideal) (W6 m ρ c (Proc.devRef .tc main_v33)) (W6 m ρ c (Proc.devRef .tc main_v1)) (W6 m ρ c (Proc.devRef .tc main_v3)) (W6 m ρ c (Proc.devRef .tc main_arg2)) := by
  show StableHlo.after hostOps3 (W6 m ρ c) (Proc.devRef .tc main_v45) = _
  after_results
  rfl
theorem W7_bias (c : Dev nD) : W7 m ρ c (Proc.devRef .tc main_v46) = shapeCast S1x64 (W6 m ρ c (Proc.devRef .tc main_arg10)) shapeCasts_S64_S1x64 := by
  show StableHlo.after hostOps3 (W6 m ρ c) (Proc.devRef .tc main_v46) = _
  after_results
  rfl

theorem state3_at (c : Dev nD) : W8 m ρ c (Proc.devRef .tc main_v47) = (Cert.Gnn.step (F := Ideal) (Cert.Gnn.step (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg9)) (m ((c.tc : Thread nD τ).loc main_arg10))) := by
  refine (W8_arr m ρ c 4).trans ?_
  rw [final3 (En7 m ρ) c]
  have eh : En7 m ρ c main_v33 = (Cert.Gnn.step (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) := (W7_of m ρ c main_v33 (by decide)).trans (state2_at m ρ c)
  have e1 : W6 m ρ c (Proc.devRef .tc main_v1) = Cert.Gnn.src (F := Ideal) (m ((c.tc : Thread nD τ).loc main_arg1)) := ((keep2 m ρ c main_v1 (by decide)).trans ((W5_of m ρ c main_v1 (by decide)).trans ((keep1 m ρ c main_v1 (by decide)).trans ((W3_of m ρ c main_v1 (by decide)).trans (keep0 m ρ c main_v1 (by decide)))))).trans (W1_v1 m ρ c)
  have e3 : W6 m ρ c (Proc.devRef .tc main_v3) = Cert.Gnn.tgt (F := Ideal) (m ((c.tc : Thread nD τ).loc main_arg1)) := ((keep2 m ρ c main_v3 (by decide)).trans ((W5_of m ρ c main_v3 (by decide)).trans ((keep1 m ρ c main_v3 (by decide)).trans ((W3_of m ρ c main_v3 (by decide)).trans (keep0 m ρ c main_v3 (by decide)))))).trans (W1_v3 m ρ c)
  have e2 : W6 m ρ c (Proc.devRef .tc main_arg2) = (m ((c.tc : Thread nD τ).loc main_arg2)) := ((keep2 m ρ c main_arg2 (by decide)).trans ((W5_of m ρ c main_arg2 (by decide)).trans ((keep1 m ρ c main_arg2 (by decide)).trans ((W3_of m ρ c main_arg2 (by decide)).trans ((keep0 m ρ c main_arg2 (by decide)).trans (W1_of m ρ c main_arg2 (by decide)))))))
  have em : En7 m ρ c main_v45 = Cert.Gnn.messages (F := Ideal) (Cert.Gnn.step (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) (Cert.Gnn.src (F := Ideal) (m ((c.tc : Thread nD τ).loc main_arg1))) (Cert.Gnn.tgt (F := Ideal) (m ((c.tc : Thread nD τ).loc main_arg1))) (m ((c.tc : Thread nD τ).loc main_arg2)) := by
    refine (W7_msg m ρ c).trans ?_
    rw [state2_at m ρ c, e1, e3, e2]
  have eW : En7 m ρ c main_arg9 = (m ((c.tc : Thread nD τ).loc main_arg9)) := ((W7_of m ρ c main_arg9 (by decide)).trans ((keep2 m ρ c main_arg9 (by decide)).trans ((W5_of m ρ c main_arg9 (by decide)).trans ((keep1 m ρ c main_arg9 (by decide)).trans ((W3_of m ρ c main_arg9 (by decide)).trans ((keep0 m ρ c main_arg9 (by decide)).trans (W1_of m ρ c main_arg9 (by decide))))))))
  have eb : En7 m ρ c main_v46 = Cert.Gnn.biasRow (F := Ideal) (m ((c.tc : Thread nD τ).loc main_arg10)) := by
    refine (W7_bias m ρ c).trans ?_
    rw [show W6 m ρ c (Proc.devRef .tc main_arg10) = (m ((c.tc : Thread nD τ).loc main_arg10)) from ((keep2 m ρ c main_arg10 (by decide)).trans ((W5_of m ρ c main_arg10 (by decide)).trans ((keep1 m ρ c main_arg10 (by decide)).trans ((W3_of m ρ c main_arg10 (by decide)).trans ((keep0 m ρ c main_arg10 (by decide)).trans (W1_of m ρ c main_arg10 (by decide)))))))]
    exact reshape_bias _
  rw [eh, em, eW, eb]
  rfl

/-! ## The last host stretch: the four states stacked -/

/-- The result array at the end of the run is the stacked states of the arguments. -/
theorem result_at (c : Dev nD) : W9 m ρ c (Proc.devRef .tc main_v52)
    = Cert.Gnn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h0 : W8 m ρ c (Proc.devRef .tc main_v5) = (Cert.Gnn.state0 (F := Ideal) (m ((c.tc : Thread nD τ).loc main_arg0)) (m ((c.tc : Thread nD τ).loc main_arg3)) (m ((c.tc : Thread nD τ).loc main_arg4))) := ((keep3 m ρ c main_v5 (by decide)).trans ((W7_of m ρ c main_v5 (by decide)).trans ((keep2 m ρ c main_v5 (by decide)).trans ((W5_of m ρ c main_v5 (by decide)).trans ((keep1 m ρ c main_v5 (by decide)).trans (W3_of m ρ c main_v5 (by decide))))))).trans (state0_at m ρ c)
  have h1 : W8 m ρ c (Proc.devRef .tc main_v19) = (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) := ((keep3 m ρ c main_v19 (by decide)).trans ((W7_of m ρ c main_v19 (by decide)).trans ((keep2 m ρ c main_v19 (by decide)).trans (W5_of m ρ c main_v19 (by decide))))).trans (state1_at m ρ c)
  have h2 : W8 m ρ c (Proc.devRef .tc main_v33) = (Cert.Gnn.step (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) := ((keep3 m ρ c main_v33 (by decide)).trans (W7_of m ρ c main_v33 (by decide))).trans (state2_at m ρ c)
  have h3 : W8 m ρ c (Proc.devRef .tc main_v47) = (Cert.Gnn.step (F := Ideal) (Cert.Gnn.step (F := Ideal) (Cert.Gnn.step (F := Ideal) (Cert.Gnn.state0 (F := Ideal) (m ((c.tc : Thread nD τ).loc main_arg0)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg9)) (m ((c.tc : Thread nD τ).loc main_arg10))) := state3_at m ρ c
  have key : StableHlo.after hostOps4 (W8 m ρ c) (Proc.devRef .tc main_v52)
      = Cert.Gnn.stack (F := Ideal) (W8 m ρ c (Proc.devRef .tc main_v5)) (W8 m ρ c (Proc.devRef .tc main_v19))
          (W8 m ρ c (Proc.devRef .tc main_v33)) (W8 m ρ c (Proc.devRef .tc main_v47)) := by
    after_results_simp <;> rfl
  show StableHlo.after hostOps4 (W8 m ρ c) (Proc.devRef .tc main_v52) = _
  rw [key, h0, h1, h2, h3]
  rfl

/-- The whole run with the result named: every weakly fair execution terminates, nothing faults, the result array ends at
    the stacked states of the arguments and the arguments end as launched. -/
theorem run_value : θ_run defs (onTc (τ := τ) (main (F := Ideal))) ⟨m, fun _ => 0, ρ⟩ (fun r => ∀ c : Dev nD,
      r.2.mem ((c.tc : Thread nD τ).loc main_v52)
        = Cert.Gnn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v52 (by decide))).trans (result_at m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c)⟩)
    (run_all m ρ)

end Cert.KernelIdeal.Tile

end
-- ==== Proof.Ref.lean ====
/-
  The reference's run read back: its result array is the network's stacked states (`Cert.Gnn.out`) of its argument
  arrays. The generated run states the result as one composed term of the arguments; it is the same term with the stages
  named, so the equation holds by unfolding the names.
-/
import proofs.«103303_j13219909337227_1_alg».proof.Proof.Gen.ReferenceIdeal.Run
import proofs.«103303_j13219909337227_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The reference's result is the stacked states of its arguments. -/
theorem res_eq (m : (ℓ : Loc nD τ sig) → Buf (Elt F) ℓ) (c : Dev nD) :
    Cert.ReferenceIdeal.Value.res_main_v67 (F := F) m c
      = Cert.Gnn.out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v67 Cert.Gnn.out Cert.Gnn.step Cert.Gnn.state0 Cert.Gnn.layer Cert.Gnn.proj Cert.Gnn.messages Cert.Gnn.stack Cert.Gnn.slab
    Cert.Gnn.relu Cert.Gnn.biasRows Cert.Gnn.biasRow Cert.Gnn.zeroRows Cert.Gnn.src Cert.Gnn.tgt
  rfl

end Cert.ReferenceIdeal.RefValue

end
-- ==== Proof.lean ====
/-
  The certificate of a three-round graph network against its reference.
  Both programs compute four node states and stack them: the input projection `max(x · Wi + bi, 0)`, then three rounds in
  which every edge carries its source node's row of the state scaled by the edge's weight, the messages are summed into
  their target nodes, and the state becomes `max((h + messages) · W + b, 0)`. The reference does all of it with host
  operations. The kernel program does the gather, the scaling and the scatter-add with the same host operations and each
  dense step `max(· · W + b, 0)` as a pallas_call over 20 tiles of 5000 node rows, rounding to bf16 on the way into the
  matrix product. At the exact instance a change of float format is the identity and a matrix product is the plain sum
  over the contraction index, so a tile's result is the whole-array dense step restricted to the tile's rows, the 20
  tiles cover the array, and each call leaves exactly the reference's stage of the state it was entered with. The
  message step is the same function on both sides and is never opened. No algebraic law beyond that is used, and the
  inputs' finiteness is not needed.
  The frames: each program's run is read segment by segment (host stretches and calls); no host operation and no call
  writes an argument array. The idealization rewrote nothing, so `preserves` is trivial.
-/
import proofs.«103303_j13219909337227_1_alg».proof.Defs
import proofs.«103303_j13219909337227_1_alg».proof.Proof.Gen.Kernel
import proofs.«103303_j13219909337227_1_alg».proof.Proof.Gen.KernelIdeal
import proofs.«103303_j13219909337227_1_alg».proof.Proof.Gen.ReferenceIdeal
import proofs.«103303_j13219909337227_1_alg».proof.Proof.Gen.Pre_finite_inputs
import proofs.«103303_j13219909337227_1_alg».proof.Proof.K.Run
import proofs.«103303_j13219909337227_1_alg».proof.Proof.KI.Run
import proofs.«103303_j13219909337227_1_alg».proof.Proof.KV.Result
import proofs.«103303_j13219909337227_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Tile.frame (F := Bits) m ρ

/-- So does its idealization. -/
theorem frame_ki : Cert.frame_KernelIdeal := fun m ρ _ => Cert.KernelIdeal.Tile.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the stacked states of those arguments. -/
theorem algebraic : Cert.algebraic_KernelIdeal_ReferenceIdeal := by
  intro m ρ m' ρ' _ hagree
  refine ⟨fun c => Cert.Gnn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Tile.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
